-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x8192x2048 : Shape := ⟨3, ![8, 8192, 2048]⟩
abbrev S8x2048x4096 : Shape := ⟨3, ![8, 2048, 4096]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn {F : FTy → Type} [FloatOps F] (main_arg0 : FVec F S16384x2048 .f32) (main_arg1 : FVec F S8x8192x2048 .f32) (main_arg2 : FVec F S8x2048x4096 .f32) (main_arg3 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x2048x4096 .f32 := Host.absf main_arg2
  let main_cst_2 : FVec F S_ .f32 := constant S_ .f32 0x7F800000#32
  let main_v10 : FVec F S8x2048x4096 .f32 := broadcastInDim S8x2048x4096 ![] bcast_S_S8x2048x4096 main_cst_2
  let main_v11 : IVec S8x2048x4096 1 := cmpf .olt main_v9 main_v10
  let main_c_3 : IVec S_ 1 := constantI S_ 1 1#1
  let main_v12 : IVec S_ 1 := (fun x v => Host.reduce IntOp.andi x v reducesTo_S8x2048x4096_S_d0_1_2 h_S_) main_v11 main_c_3
  let main_v13 : IVec S_ 1 := andi main_v8 main_v12
  main_v13
-- ==== Kernel.lean ====
abbrev S16384x2048 : Shape := ⟨2, ![16384, 2048]⟩
abbrev S8x8192x2048 : Shape := ⟨3, ![8, 8192, 2048]⟩
abbrev S8x2048x4096 : Shape := ⟨3, ![8, 2048, 4096]⟩
abbrev S8 : Shape := ⟨1, ![8]⟩
abbrev S8x2048x2048 : Shape := ⟨3, ![8, 2048, 2048]⟩
abbrev S8x2048x8192 : Shape := ⟨3, ![8, 2048, 8192]⟩
abbrev S8x4096x2048 : Shape := ⟨3, ![8, 4096, 2048]⟩
abbrev S1x1024x2048 : Shape := ⟨3, ![1, 1024, 2048]⟩
abbrev S1x2048x512 : Shape := ⟨3, ![1, 2048, 512]⟩
abbrev S1x512x2048 : Shape := ⟨3, ![1, 512, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x2048x4096, .f32⟩
  | .hbm, ⟨3, _⟩ => ⟨S8, .i32⟩
  | .hbm, ⟨4, _⟩ => ⟨S8x2048x2048, .f32⟩
  | .hbm, ⟨5, _⟩ => ⟨S8x2048x2048, .bf16⟩
  | .hbm, ⟨6, _⟩ => ⟨S8x2048x8192, .f32⟩
  | .hbm, ⟨7, _⟩ => ⟨S8x2048x8192, .bf16⟩
  | .hbm, ⟨8, _⟩ => ⟨S8x4096x2048, .f32⟩
  | .hbm, ⟨9, _⟩ => ⟨S8x4096x2048, .bf16⟩
  | .hbm, ⟨10, _⟩ => ⟨S8x2048x2048, .f32⟩
  | .hbm, ⟨11, _⟩ => ⟨S16384x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x1024x2048, .f32⟩
  | .local _ .vmem, ⟨9, _⟩ => ⟨S1x1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384x2048_S8x2048x2048 : S16384x2048.ShapeCasts S8x2048x2048
  bitsLt_bf16_f32 : FTy.bits .bf16 < FTy.bits .f32
  transposes_S8x8192x2048_S8x2048x8192_0_2_1 : S8x8192x2048.Transposes [0, 2, 1] S8x2048x8192
  transposes_S8x2048x4096_S8x4096x2048_0_2_1 : S8x2048x4096.Transposes [0, 2, 1] S8x4096x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S8x2048x2048_S16384x2048 : S8x2048x2048.ShapeCasts S16384x2048
  dot_S1024x2048_S2048x512_S1024x512_1_0_0_1_n_n_wf : DotDims.WF S1024x2048 S2048x512 S1024x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .bf16 = 32 ∨ (Rect.block (s := S8x2048x2048) S1x1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .bf16 = 32 ∨ (Rect.block (s := S8x2048x8192) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x8192.size a
  hwx0_2 : ∀ i : grid0.Coords, EltTy.bits .bf16 = 32 ∨ (Rect.block (s := S8x2048x8192) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .bf16 = 32 ∨ (Rect.block (s := S8x4096x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x2048x2048.size a
  hwx0_4 : ∀ i : grid0.Coords, EltTy.bits .f32 = 32 ∨ (Rect.block (s := S8x2048x2048) S1x1024x2048.size (cc0_transform_4 i) (hinb0_4 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x8192x2048 : Shape := ⟨3, ![8, 8192, 2048]⟩
abbrev S8x2048x4096 : Shape := ⟨3, ![8, 2048, 4096]⟩
abbrev S8 : Shape := ⟨1, ![8]⟩
abbrev S8x2048x2048 : Shape := ⟨3, ![8, 2048, 2048]⟩
abbrev S8x2048x8192 : Shape := ⟨3, ![8, 2048, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x8192x2048, .f32⟩
  | .hbm, ⟨2, _⟩ => ⟨S8x2048x4096, .f32⟩
  | .hbm, ⟨3, _⟩ => ⟨S8, .i32⟩
  | .hbm, ⟨4, _⟩ => ⟨S8x2048x2048, .f32⟩
  | .hbm, ⟨5, _⟩ => ⟨S8x2048x8192, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S_, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S8x2048x2048, .f32⟩
  | .hbm, ⟨19, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  shapeCasts_S8x2048x2048_S16384x2048 : S8x2048x2048.ShapeCasts S16384x2048
  dot_S8x2048x2048_S8x8192x2048_S8x2048x8192_2_2_1_1_0_0_wf : DotDims.WF S8x2048x2048 S8x8192x2048 S8x2048x8192 [2] [2] [1] [1] [0] [0]
  dot_S8x2048x4096_S8x2048x4096_S8x2048x2048_2_2_1_1_0_0_wf : DotDims.WF S8x2048x4096 S8x2048x4096 S8x2048x2048 [2] [2] [1] [1] [0] [0]

variable [Facts₀]

def dot_S8x2048x2048_S8x8192x2048_S8x2048x8192_2_2_1_1_0_0 : DotDims S8x2048x2048 S8x8192x2048 S8x2048x8192 where
  lhsContracting := [2]
  rhsContracting := [2]
  lhsNonContracting := [1]
  rhsNonContracting := [1]
  lhsBatch := [0]
  rhsBatch := [0]
  wf := dot_S8x2048x2048_S8x8192x2048_S8x2048x8192_2_2_1_1_0_0_wf
def dot_S8x2048x4096_S8x2048x4096_S8x2048x2048_2_2_1_1_0_0 : DotDims S8x2048x4096 S8x2048x4096 S8x2048x2048 where
  lhsContracting := [2]
  rhsContracting := [2]
  lhsNonContracting := [1]
  rhsNonContracting := [1]
  lhsBatch := [0]
  rhsBatch := [0]
  wf := dot_S8x2048x4096_S8x2048x4096_S8x2048x2048_2_2_1_1_0_0_wf

class Facts : Prop extends Facts₀ where

variable [Facts]
-- ==== Proof.FrameK.Base.lean ====
/-
  What the runs of the kernel body and the launch share: the contents of every array when the kernel region is
  entered (the host operations before it applied to the launch memory), each window's block of its array at a grid
  point, the fact that an input window's staging buffer holds that block whenever the body runs, and the one
  condition the body branches on — "this is the first of the eight steps along the hidden axis" — in closed form.
-/
import proofs.«100458_j64750926954712_2_alg».proof.Proof.Gen.Kernel.Launch
import proofs.«100458_j64750926954712_2_alg».proof.Proof.Gen.Kernel.Skeleton
import proofs.«100458_j64750926954712_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Every buffer's contents on core `c` when the region is entered: the six host operations before it
    (regroup the tokens by expert, transpose both weight arrays, change each to the narrow float format)
    applied to the launch memory. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the one host operation after it. Holding the
    buffers at the launch contents it reduces to the region, entered at `V`, continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by exact hostOps0_sub)
    (by exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs, whether the block was fetched at this
    point or is still there from an earlier one (its index has not moved since): for any proof data whose array is
    the region-entry contents and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one condition, from the grid coordinates: the coordinate along the hidden axis is zero. -/
abbrev cond0_0 (i : grid0.Coords) : Prop := (Scalar.cmpi .ne (Scalar.extui (Scalar.cmpi .eq (BitVec.ofNat 32 (i 2).val) 0#32)) 0#32) = 1#1
/-- The hidden axis is the innermost of the grid and has eight steps: the condition holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers the body is called with -/

/-- One staging buffer of the output window, through which its contents are stated (the choice does not matter). -/
abbrev VO0_4 : View sig .tc .vmem S1x1024x2048 .f32 := (Memref.whole cc0_stg4_0 : Memref sig .tc .vmem S1x1024x2048 .f32).view
abbrev ms0_0 (t : Fin cfg0.N) : Memref sig .tc .vmem S1x1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)

end Cert.Kernel.Hand

end
-- ==== Proof.FrameK.RunA.lean ====
/-
  The kernel body run once, symbolically, at a grid point where the hidden-axis coordinate is ZERO: it first
  overwrites the output block with zeros, then reads the four input blocks and the (now zero) output block and
  stores the block plus this step's partial product. What the two stores leave in the output's staging buffer is
  found by the run itself, as a list of pieces.
-/
import proofs.«100458_j64750926954712_2_alg».proof.Proof.FrameK.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last store first) at a first step, WITH the
    proof that on whole staging buffers — the four inputs at given contents, the output at anything — the body runs to
    its end holding the inputs as they were and the output's buffer with those pieces written. -/
noncomputable def kernelRun0_A (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) :
    { L4 : List (View.Piece (Elt F) S1x1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.FrameK.RunB.lean ====
/-
  The kernel body run once, symbolically, at a grid point where the hidden-axis coordinate is NOT zero: it reads the
  four input blocks and the output block as the step before left it, and stores the block plus this step's partial
  product. The one store's piece is found by the run itself.
-/
import proofs.«100458_j64750926954712_2_alg».proof.Proof.FrameK.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging buffer at a later step, WITH the proof that on whole
    staging buffers — the four inputs and the output at given contents — the body runs to its end holding the inputs as
    they were and the output's buffer with that piece written. -/
noncomputable def kernelRun0_B (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) :
    { L4 : List (View.Piece (Elt F) S1x1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.Kernel.Hand

end
-- ==== Proof.FrameK.Data.lean ====
/-
  The kernel region's proof data and its run.

  Per grid point the output block's staging buffer holds, after the body, what the body's stores left there: at a
  first step along the hidden axis the zero block plus the step's partial product, at a later step what the step
  before left plus the step's partial product (`outsAt0`, by recursion on the point). The four input windows' buffers
  hold their blocks. With these contents the body's symbolic runs discharge the pipeline's obligation at every point.

  Two of the input windows read the SAME array (the gate half and the up half of the first weight matrix): the array is
  handed to the pipeline once and each of the two windows holds half of the read permission, which is put together
  again after the region. The one host operation after the region (the result regrouped as a flat token array) reads
  the output array as the region left it.
-/
import proofs.«100458_j64750926954712_2_alg».proof.Proof.FrameK.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave in the output's staging buffer -/

/-- The pieces of a first step tile the output block (two whole-block stores), so they cover it. -/
theorem cover0_A_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) (y : S1x1024x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x1024x2048.size (by sl_kernel_rfl) y

/-- What a first step leaves in the output's staging buffer: its pieces read back. -/
def out0_A_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) : Vec F S1x1024x2048 .f32 :=
  VO0_4.read (Elt F) (VO0_4.writes (Elt F) VO0_4.junk (kernelRun0_A c i arg3 harg3 arg4 harg4 arg5 harg5 arg6 harg6 arg7 harg7 hc0 x0 x1 x2 x3).1)

/-- The piece of a later step is the whole output block, so it covers it. -/
theorem cover0_B_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) (y : S1x1024x2048.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x1024x2048.size (by sl_kernel_rfl) y

/-- What a later step leaves in the output's staging buffer: its piece read back. -/
def out0_B_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) : Vec F S1x1024x2048 .f32 :=
  VO0_4.read (Elt F) (VO0_4.writes (Elt F) VO0_4.junk (kernelRun0_B c i arg3 harg3 arg4 harg4 arg5 harg5 arg6 harg6 arg7 harg7 hc0 x0 x1 x2 x3 xo4).1)

/-! ## What the output's staging buffer holds after each point -/

/-- THE ACCUMULATION over the hidden axis: after the body at position `n` the output's staging buffer holds the first
    step's contents if `n` is a first step (`n ≡ 0` mod 8), and otherwise a later step's contents over what position
    `n - 1` left (the buffer is not written back in between). -/
def outsAt0 (c : Dev nD) : (n : ℕ) → n < cfg0.N → Vec F S1x1024x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a first step: that case's contents. -/
theorem outsAt0_A (c : Dev nD) (t : Fin cfg0.N) (h0 : t.val % 8 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later step: that case's contents, over what the point before left. -/
theorem outsAt0_B (c : Dev nD) (t : Fin cfg0.N) (h0 : ¬t.val % 8 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped buffers no window stages;
    nothing owed; the two windows that read one array hold half of its read permission each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later step the output's staging buffer holds what the body left at the point before: the point is not the
    first and the block was not written back in between (it is written back only after the eighth step). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the closed form says which case the point is in; at
    a later step the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 8 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.Launch.lean ====
/-
  The launch: from the body obligation to the run of the whole program on every core.

  The region is entered holding every array at the contents the host operations before it computed. Two input windows
  read ONE array; the pipeline holds an input array only to read it, so the array's permission is split in halves,
  one per window, and the halves are joined again when the region is left. The one host operation after the region
  reads the result array as the region left it and writes the flat result; the argument arrays are never written.
-/
import proofs.«100458_j64750926954712_2_alg».proof.Proof.FrameK.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the pipeline holds them -/

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The pipeline's five windows hold four arrays: the token array, the first weight array twice (a half of its
    read permission each), the second weight array, and the result array. -/
theorem arrays_eq' (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare} G 0) ∗ (((c.tc : Thread nD τ).loc main_v3) ↦{fullShare.left} G 1)
          ∗ (((c.tc : Thread nD τ).loc main_v3) ↦{fullShare.right} G 2) ∗ (((c.tc : Thread nD τ).loc main_v5) ↦{fullShare} G 3)
          ∗ (((c.tc : Thread nD τ).loc main_v6) ↦{fullShare} G 4)) := by
  unfold Dat.arrays
  rw [bigSep_W0, share_0, share_1, share_2, share_3, share_4,
    (arr_whole0 0).set_eq_univ, (arr_whole0 1).set_eq_univ, (arr_whole0 3).set_eq_univ, (arr_whole0 4).set_eq_univ]

/-- The four distinct arrays behind the windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v3) ↦{fullShare} W main_v3)
          ∗ (((c.tc : Thread nD τ).loc main_v5) ↦{fullShare} W main_v5) ∗ (((c.tc : Thread nD τ).loc main_v6) ↦{fullShare} W main_v6)) := by
  unfold Pipeline.arrBufs
  rw [bigSep_eq_bigSepL_of_eq [main_v1, main_v3, main_v5, main_v6] (by decide) (by decide)]
  rfl

/-- Entering the region: the arrays at the region-entry contents make the pipeline's arrays, the shared one split. -/
theorem hsplit (c : Dev nD) :
    (Pipeline.arrBufs spec0 c (V m c) : sProp 𝕄) ⊢ (dats m 0 c).arrays ((dats m 0 c).arrAt · 0) := by
  rw [arrays_eq', arrBufs_eq]
  iintro ⟨H1, H3, H5, H6⟩
  ihave H3' := (pointsTo_share (PosShare.mem_left_op_right fullShare)).1 $$ H3
  icases H3' with ⟨H3a, H3b⟩
  isplitl [H1]; · iexact H1
  isplitl [H3a]; · iexact H3a
  isplitl [H3b]; · iexact H3b
  isplitl [H5]; · iexact H5
  iexact H6

/-! ## The host operation after the region -/

/-- The two buffers the operation after the region touches: the result array it reads and the flat result it writes. -/
abbrev tailSet : Finset (DevRef τ sig) := {Proc.devRef .tc main_v6, Proc.devRef .tc main_v7}

/-- The buffers' contents when the region is left: the result array as the pipeline's write-backs left it, every
    other buffer as the region found it. -/
def Wx (c : Dev nD) : Valuation τ sig (Elt F) :=
  Function.update (V0 m c) (Proc.devRef .tc main_v6) ((dats m 0 c).arrAt 4 cfg0.N)
/-- And after the last host operation. -/
def Wy (c : Dev nD) : Valuation τ sig (Elt F) := StableHlo.after ([hostOps1] : List (List (HloOp τ sig (Elt F)))).flatten (Wx m c)

theorem Wx_v6 (c : Dev nD) : Wx m c (Proc.devRef .tc main_v6) = (dats m 0 c).arrAt 4 cfg0.N := by
  unfold Wx; exact Function.update_self _ _ _
theorem Wx_v7 (c : Dev nD) : Wx m c (Proc.devRef .tc main_v7) = V m c main_v7 := by
  unfold Wx; exact Function.update_of_ne (by decide) _ _
theorem Wy_v6 (c : Dev nD) : Wy m c (Proc.devRef .tc main_v6) = (dats m 0 c).arrAt 4 cfg0.N := by
  unfold Wy
  rw [StableHlo.after_of_forall_not_mem _ _ fun op hop => ?_, Wx_v6]
  simp only [List.flatten_cons, List.flatten_nil, List.append_nil, hostOps1, List.mem_cons, List.mem_nil_iff, or_false] at hop
  subst hop
  simp only [StableHlo.reshape_writes, Finset.mem_singleton]
  exact StableHlo.devRef_ne_of_ne (by decide)

theorem held_tail (c : Dev nD) (W : Valuation τ sig (Elt F)) :
    (StableHlo.held (c.tc : Thread nD τ) tailSet W : sProp 𝕄)
      = iprop((((c.tc : Thread nD τ).loc main_v6) ↦{fullShare} W (Proc.devRef .tc main_v6)) ∗ (((c.tc : Thread nD τ).loc main_v7) ↦{fullShare} W (Proc.devRef .tc main_v7))) := by
  unfold StableHlo.held tailSet
  rw [bigSep_eq_bigSepL_of_eq [Proc.devRef .tc main_v6, Proc.devRef .tc main_v7] (by decide) (by decide)]
  rfl

/-- What is handed back after the last host operation, besides the pipeline's arrays: the argument arrays as the
    region found them and the flat result as the operation wrote it. -/
def Zp (c : Dev nD) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_v7) ↦{fullShare} Wy m c (Proc.devRef .tc main_v7)))

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The host operation after the region, run from the region's exit: it reads the result array out of the pipeline's
    arrays and writes the flat result among the buffers that bypassed the region. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  rw [arrays_eq', unscopedRest0_eq]
  unfold Zp
  rw [show (Pipeline.chain [StableHlo.seq (hostOps1 (F := F))]) = Pipeline.chain (([hostOps1] : List (List (HloOp τ sig (Elt F)))).map StableHlo.seq ++ []) from rfl]
  iintro ⟨Hk, Hb, ⟨A0, A1, A2, A3, A4⟩, ⟨R0, R1, R2, R3, Rv0, Rv2, Rv4, Rv7⟩⟩
  iapply (Pipeline.wp_seqs_then (fun q => (cfgs q).toPCfg (Val := Elt F)) defs₀ Variants.none c tailSet [] [hostOps1] (tail_sub) (tail_fresh) (Wx m c)) $$ [Hb A4 Rv7]
  · rw [held_tail, Wx_v6, Wx_v7]
    isplitl [Hb]; · iexact Hb
    isplitl [A4]; · iexact A4
    iexact Rv7
  iintro ⟨Hb, H⟩
  rw [Pipeline.chain_nil, wp_pure]
  imodintro
  iapply Hk
  have hh : (StableHlo.held (c.tc : Thread nD τ) tailSet (StableHlo.after ([hostOps1] : List (List (HloOp τ sig (Elt F)))).flatten (Wx m c)) : sProp 𝕄)
      ⊢ iprop((((c.tc : Thread nD τ).loc main_v6) ↦{fullShare} (dats m 0 c).arrAt 4 cfg0.N) ∗ (((c.tc : Thread nD τ).loc main_v7) ↦{fullShare} Wy m c (Proc.devRef .tc main_v7))) := by
    rw [show StableHlo.after ([hostOps1] : List (List (HloOp τ sig (Elt F)))).flatten (Wx m c) = Wy m c from rfl, held_tail, Wy_v6]
  ihave H' := hh $$ H
  icases H' with ⟨A4, Rv7⟩
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  isplitl [R2]; · iexact R2
  isplitl [R3]; · iexact R3
  iexact Rv7

/-! ## The run -/

/-- What the final memory holds on core `c`: the flat result as the last host operation wrote it, the four argument
    arrays as the region found them. -/
def FinalAt (c : Dev nD) (s : MemSt nD τ sig (Elt F)) : Prop :=
  s.mem ((c.tc : Thread nD τ).loc main_v7) = Wy m c (Proc.devRef .tc main_v7)
    ∧ s.mem ((c.tc : Thread nD τ).loc main_arg0) = V m c main_arg0
    ∧ s.mem ((c.tc : Thread nD τ).loc main_arg1) = V m c main_arg1
    ∧ s.mem ((c.tc : Thread nD τ).loc main_arg2) = V m c main_arg2
    ∧ s.mem ((c.tc : Thread nD τ).loc main_arg3) = V m c main_arg3

/-- Reading the buffers handed back against the final memory. -/
theorem hY (c : Dev nD) (s' : Phys nD τ sig (Elt F)) :
    iprop((iprop(emp) : sProp 𝕄) ∗ Zp m c ∗ SI s') ⊢ |={Set.univ}=> iprop(⌜FinalAt m c s'.mem⌝ ∗ SI s') := by
  unfold Zp FinalAt
  iintro ⟨-, ⟨H0, H1, H2, H3, H7⟩, HSI⟩
  icombine HSI H0 gives %h0
  icombine HSI H1 gives %h1
  icombine HSI H2 gives %h2
  icombine HSI H3 gives %h3
  icombine HSI H7 gives %h7
  imodintro
  isplitr
  · ipureintro
    exact ⟨Buf.eq_of_forall_mem_univ h7, Buf.eq_of_forall_mem_univ h0, Buf.eq_of_forall_mem_univ h1, Buf.eq_of_forall_mem_univ h2, Buf.eq_of_forall_mem_univ h3⟩
  iexact HSI

set_option backward.isDefEq.respectTransparency.types false in
/-- At the compiled mesh, for any float values, from any memory with zero counters: every weakly fair execution of the
    program terminates, nothing faulting, and the final memory of every core is `FinalAt`. -/
theorem run_main : θ_run defs (onTc (τ := τ) (main (F := F))) (s₀ m ρ) (fun r => ∀ c : Dev nD, FinalAt m c r.2) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => Pipeline.unscopedRest spec0 c (V m c)) (Z' := Zp m)
    (hX := fun c => by
      rw [Pipeline.unscopedRestP_none]
      iintro H
      isplitr; · iempintro
      iexact H)
    (hin := fun c => show iprop((iprop(emp) : sProp 𝕄) ∗ Pipeline.prefHeld (Pipeline.Prefetch.none (sig := sig)) c (fun _ => fullShare.right) (fun k => k.elim0) ∗ Pipeline.scopedRest spec0 c) ⊢ (Pipeline.scopedRest spec0 c : sProp 𝕄) from by
      iintro ⟨-, -, HR⟩
      iexact HR)
    (hout := fun c => show (Pipeline.scopedRest spec0 c : sProp 𝕄) ⊢ iprop((iprop(emp) : sProp 𝕄) ∗ Pipeline.scopedRest spec0 c) from by
      iintro HR
      isplitr; · iempintro
      iexact HR)
    (htail := htail m)
    (QY := fun c s => FinalAt m c s)
    (hY := hY m)
    (hQ := fun s h c => (h c).2.2)

/-! ## The contents the run ends with, read back -/

/-- The host operations before the region write none of the argument arrays. -/
theorem V_main_arg0 (c : Dev nD) : V m c main_arg0 = m ((c.tc : Thread nD τ).loc main_arg0) := by
  show StableHlo.after hostOps0 (fun b => m (c, b)) (Proc.devRef .tc main_arg0) = _
  after_results
theorem V_main_arg1 (c : Dev nD) : V m c main_arg1 = m ((c.tc : Thread nD τ).loc main_arg1) := by
  show StableHlo.after hostOps0 (fun b => m (c, b)) (Proc.devRef .tc main_arg1) = _
  after_results
theorem V_main_arg2 (c : Dev nD) : V m c main_arg2 = m ((c.tc : Thread nD τ).loc main_arg2) := by
  show StableHlo.after hostOps0 (fun b => m (c, b)) (Proc.devRef .tc main_arg2) = _
  after_results
theorem V_main_arg3 (c : Dev nD) : V m c main_arg3 = m ((c.tc : Thread nD τ).loc main_arg3) := by
  show StableHlo.after hostOps0 (fun b => m (c, b)) (Proc.devRef .tc main_arg3) = _
  after_results

/-- The flat result is the result array, as the region left it, regrouped. -/
theorem Wy_v7 (c : Dev nD) :
    Wy m c (Proc.devRef .tc main_v7)
      = shapeCast S16384x2048 ((dats m 0 c).arrAt 4 cfg0.N : Vec F S8x2048x2048 .f32) shapeCasts_S8x2048x2048_S16384x2048 := by
  unfold Wy
  show StableHlo.after hostOps1 (Wx m c) (Proc.devRef .tc main_v7) = _
  after_results
  rw [Wx_v6]
  rfl

end Cert.Kernel.Hand

end
-- ==== Proof.FrameKI.Base.lean ====
/-
  What the runs of the kernel body and the launch share: the contents of every array when the kernel region is
  entered (the host operations before it applied to the launch memory), each window's block of its array at a grid
  point, the fact that an input window's staging buffer holds that block whenever the body runs, and the one
  condition the body branches on — "this is the first of the eight steps along the hidden axis" — in closed form.
-/
import proofs.«100458_j64750926954712_2_alg».proof.Proof.Gen.KernelIdeal.Launch
import proofs.«100458_j64750926954712_2_alg».proof.Proof.Gen.KernelIdeal.Skeleton
import proofs.«100458_j64750926954712_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Every buffer's contents on core `c` when the region is entered: the six host operations before it
    (regroup the tokens by expert, transpose both weight arrays, change each to the narrow float format)
    applied to the launch memory. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the one host operation after it. Holding the
    buffers at the launch contents it reduces to the region, entered at `V`, continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by exact hostOps0_sub)
    (by exact hostOps0_fresh) main_chain

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block whenever the body runs, whether the block was fetched at this
    point or is still there from an earlier one (its index has not moved since): for any proof data whose array is
    the region-entry contents and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The body's one condition, from the grid coordinates: the coordinate along the hidden axis is zero. -/
abbrev cond0_0 (i : grid0.Coords) : Prop := (Scalar.cmpi .ne (Scalar.extui (Scalar.cmpi .eq (BitVec.ofNat 32 (i 2).val) 0#32)) 0#32) = 1#1
/-- The hidden axis is the innermost of the grid and has eight steps: the condition holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging buffers the body is called with -/

/-- One staging buffer of the output window, through which its contents are stated (the choice does not matter). -/
abbrev VO0_4 : View sig .tc .vmem S1x1024x2048 .f32 := (Memref.whole cc0_stg4_0 : Memref sig .tc .vmem S1x1024x2048 .f32).view
abbrev ms0_0 (t : Fin cfg0.N) : Memref sig .tc .vmem S1x1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .f32 := win0_4.stage (cfg0.slots t 4)
abbrev hs0_4 (t : Fin cfg0.N) : (ms0_4 t).IsWhole := hstage0_4 ((cfg0.slots t 4).cast nbuf0_4)

end Cert.KernelIdeal.Hand

end
-- ==== Proof.FrameKI.RunA.lean ====
/-
  The kernel body run once, symbolically, at a grid point where the hidden-axis coordinate is ZERO: it first
  overwrites the output block with zeros, then reads the four input blocks and the (now zero) output block and
  stores the block plus this step's partial product. What the two stores leave in the output's staging buffer is
  found by the run itself, as a list of pieces.
-/
import proofs.«100458_j64750926954712_2_alg».proof.Proof.FrameKI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging buffer (last store first) at a first step, WITH the
    proof that on whole staging buffers — the four inputs at given contents, the output at anything — the body runs to
    its end holding the inputs as they were and the output's buffer with those pieces written. -/
noncomputable def kernelRun0_A (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) :
    { L4 : List (View.Piece (Elt F) S1x1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.FrameKI.RunB.lean ====
/-
  The kernel body run once, symbolically, at a grid point where the hidden-axis coordinate is NOT zero: it reads the
  four input blocks and the output block as the step before left it, and stores the block plus this step's partial
  product. The one store's piece is found by the run itself.
-/
import proofs.«100458_j64750926954712_2_alg».proof.Proof.FrameKI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The piece the body's store leaves in the output's staging buffer at a later step, WITH the proof that on whole
    staging buffers — the four inputs and the output at given contents — the body runs to its end holding the inputs as
    they were and the output's buffer with that piece written. -/
noncomputable def kernelRun0_B (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) :
    { L4 : List (View.Piece (Elt F) S1x1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0__grouped_mlp_kernel i arg3 harg3 arg4 harg4 arg5 harg5 arg6 harg6 arg7 harg7) K } := by
  refine ⟨?_, fun E K => ?run⟩
  case run =>
    simp only [cc0__grouped_mlp_kernel_eq_skeleton]; unfold cc0__grouped_mlp_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

end Cert.KernelIdeal.Hand

end
-- ==== Proof.FrameKI.Data.lean ====
/-
  The kernel region's proof data and its run.

  Per grid point the output block's staging buffer holds, after the body, what the body's stores left there: at a
  first step along the hidden axis the zero block plus the step's partial product, at a later step what the step
  before left plus the step's partial product (`outsAt0`, by recursion on the point). The four input windows' buffers
  hold their blocks. With these contents the body's symbolic runs discharge the pipeline's obligation at every point.

  Two of the input windows read the SAME array (the gate half and the up half of the first weight matrix): the array is
  handed to the pipeline once and each of the two windows holds half of the read permission, which is put together
  again after the region. The one host operation after the region (the result regrouped as a flat token array) reads
  the output array as the region left it.
-/
import proofs.«100458_j64750926954712_2_alg».proof.Proof.FrameKI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores leave in the output's staging buffer -/

/-- The pieces of a first step tile the output block (two whole-block stores), so they cover it. -/
theorem cover0_A_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) (y : S1x1024x2048.Idx) :
    ∃ pc ∈ (kernelRun0_A c i arg3 harg3 arg4 harg4 arg5 harg5 arg6 harg6 arg7 harg7 hc0 x0 x1 x2 x3).1, y ∈ pc.1.set :=
  View.cover_of_tiledL (kernelRun0_A c i arg3 harg3 arg4 harg4 arg5 harg5 arg6 harg6 arg7 harg7 hc0 x0 x1 x2 x3).1 S1x1024x2048.size (by sl_kernel_rfl) y

/-- What a first step leaves in the output's staging buffer: its pieces read back. -/
def out0_A_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) : Vec F S1x1024x2048 .f32 :=
  VO0_4.read (Elt F) (VO0_4.writes (Elt F) VO0_4.junk (kernelRun0_A c i arg3 harg3 arg4 harg4 arg5 harg5 arg6 harg6 arg7 harg7 hc0 x0 x1 x2 x3).1)

/-- The piece of a later step is the whole output block, so it covers it. -/
theorem cover0_B_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) (y : S1x1024x2048.Idx) :
    ∃ pc ∈ (kernelRun0_B c i arg3 harg3 arg4 harg4 arg5 harg5 arg6 harg6 arg7 harg7 hc0 x0 x1 x2 x3 xo4).1, y ∈ pc.1.set :=
  View.cover_of_tiledL (kernelRun0_B c i arg3 harg3 arg4 harg4 arg5 harg5 arg6 harg6 arg7 harg7 hc0 x0 x1 x2 x3 xo4).1 S1x1024x2048.size (by sl_kernel_rfl) y

/-- What a later step leaves in the output's staging buffer: its piece read back. -/
def out0_B_4 (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) : Vec F S1x1024x2048 .f32 :=
  VO0_4.read (Elt F) (VO0_4.writes (Elt F) VO0_4.junk (kernelRun0_B c i arg3 harg3 arg4 harg4 arg5 harg5 arg6 harg6 arg7 harg7 hc0 x0 x1 x2 x3 xo4).1)

/-! ## What the output's staging buffer holds after each point -/

/-- THE ACCUMULATION over the hidden axis: after the body at position `n` the output's staging buffer holds the first
    step's contents if `n` is a first step (`n ≡ 0` mod 8), and otherwise a later step's contents over what position
    `n - 1` left (the buffer is not written back in between). -/
def outsAt0 (c : Dev nD) : (n : ℕ) → n < cfg0.N → Vec F S1x1024x2048 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 8 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- At a first step: that case's contents. -/
theorem outsAt0_A (c : Dev nD) (t : Fin cfg0.N) (h0 : t.val % 8 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- At a later step: that case's contents, over what the point before left. -/
theorem outsAt0_B (c : Dev nD) (t : Fin cfg0.N) (h0 : ¬t.val % 8 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped buffers no window stages;
    nothing owed; the two windows that read one array hold half of its read permission each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a later step the output's staging buffer holds what the body left at the point before: the point is not the
    first and the block was not written back in between (it is written back only after the eighth step). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the closed form says which case the point is in; at
    a later step the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 128 := lt_of_lt_of_eq t.isLt (show cfg0.N = 128 from N_0)
  by_cases h0 : t.val % 8 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.Launch.lean ====
/-
  The launch: from the body obligation to the run of the whole program on every core.

  The region is entered holding every array at the contents the host operations before it computed. Two input windows
  read ONE array; the pipeline holds an input array only to read it, so the array's permission is split in halves,
  one per window, and the halves are joined again when the region is left. The one host operation after the region
  reads the result array as the region left it and writes the flat result; the argument arrays are never written.
-/
import proofs.«100458_j64750926954712_2_alg».proof.Proof.FrameKI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the pipeline holds them -/

theorem share_0 (c : Dev nD) : (dats m 0 c).share 0 = fullShare := rfl
theorem share_1 (c : Dev nD) : (dats m 0 c).share 1 = fullShare.left := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- The pipeline's five windows hold four arrays: the token array, the first weight array twice (a half of its
    read permission each), the second weight array, and the result array. -/
theorem arrays_eq' (c : Dev nD) (G : (w : Fin cfg0.W) → Buf (Elt F) ((cfg0.win w).arr.view.loc (c.tc : Thread nD τ))) :
    ((dats m 0 c).arrays G : sProp 𝕄)
      = iprop((((c.tc : Thread nD τ).loc main_v1) ↦{fullShare} G 0) ∗ (((c.tc : Thread nD τ).loc main_v3) ↦{fullShare.left} G 1)
          ∗ (((c.tc : Thread nD τ).loc main_v3) ↦{fullShare.right} G 2) ∗ (((c.tc : Thread nD τ).loc main_v5) ↦{fullShare} G 3)
          ∗ (((c.tc : Thread nD τ).loc main_v6) ↦{fullShare} G 4)) := by
  unfold Dat.arrays
  rw [bigSep_W0, share_0, share_1, share_2, share_3, share_4,
    (arr_whole0 0).set_eq_univ, (arr_whole0 1).set_eq_univ, (arr_whole0 3).set_eq_univ, (arr_whole0 4).set_eq_univ]

/-- The four distinct arrays behind the windows, one by one. -/
theorem arrBufs_eq (c : Dev nD) (W : (b : Ref sig .tc) → Buf (Elt F) ((c.tc : Thread nD τ).loc b)) :
    (Pipeline.arrBufs spec0 c W : sProp 𝕄)
      = iprop((((c.tc : Thread nD τ).loc main_v1) ↦{fullShare} W main_v1) ∗ (((c.tc : Thread nD τ).loc main_v3) ↦{fullShare} W main_v3)
          ∗ (((c.tc : Thread nD τ).loc main_v5) ↦{fullShare} W main_v5) ∗ (((c.tc : Thread nD τ).loc main_v6) ↦{fullShare} W main_v6)) := by
  unfold Pipeline.arrBufs
  rw [bigSep_eq_bigSepL_of_eq [main_v1, main_v3, main_v5, main_v6] (by decide) (by decide)]
  rfl

/-- Entering the region: the arrays at the region-entry contents make the pipeline's arrays, the shared one split. -/
theorem hsplit (c : Dev nD) :
    (Pipeline.arrBufs spec0 c (V m c) : sProp 𝕄) ⊢ (dats m 0 c).arrays ((dats m 0 c).arrAt · 0) := by
  rw [arrays_eq', arrBufs_eq]
  iintro ⟨H1, H3, H5, H6⟩
  ihave H3' := (pointsTo_share (PosShare.mem_left_op_right fullShare)).1 $$ H3
  icases H3' with ⟨H3a, H3b⟩
  isplitl [H1]; · iexact H1
  isplitl [H3a]; · iexact H3a
  isplitl [H3b]; · iexact H3b
  isplitl [H5]; · iexact H5
  iexact H6

/-! ## The host operation after the region -/

/-- The two buffers the operation after the region touches: the result array it reads and the flat result it writes. -/
abbrev tailSet : Finset (DevRef τ sig) := {Proc.devRef .tc main_v6, Proc.devRef .tc main_v7}

/-- The buffers' contents when the region is left: the result array as the pipeline's write-backs left it, every
    other buffer as the region found it. -/
def Wx (c : Dev nD) : Valuation τ sig (Elt F) :=
  Function.update (V0 m c) (Proc.devRef .tc main_v6) ((dats m 0 c).arrAt 4 cfg0.N)
/-- And after the last host operation. -/
def Wy (c : Dev nD) : Valuation τ sig (Elt F) := StableHlo.after ([hostOps1] : List (List (HloOp τ sig (Elt F)))).flatten (Wx m c)

theorem Wx_v6 (c : Dev nD) : Wx m c (Proc.devRef .tc main_v6) = (dats m 0 c).arrAt 4 cfg0.N := by
  unfold Wx; exact Function.update_self _ _ _
theorem Wx_v7 (c : Dev nD) : Wx m c (Proc.devRef .tc main_v7) = V m c main_v7 := by
  unfold Wx; exact Function.update_of_ne (by decide) _ _
theorem Wy_v6 (c : Dev nD) : Wy m c (Proc.devRef .tc main_v6) = (dats m 0 c).arrAt 4 cfg0.N := by
  unfold Wy
  rw [StableHlo.after_of_forall_not_mem _ _ fun op hop => ?_, Wx_v6]
  simp only [List.flatten_cons, List.flatten_nil, List.append_nil, hostOps1, List.mem_cons, List.mem_nil_iff, or_false] at hop
  subst hop
  simp only [StableHlo.reshape_writes, Finset.mem_singleton]
  exact StableHlo.devRef_ne_of_ne (by decide)

theorem held_tail (c : Dev nD) (W : Valuation τ sig (Elt F)) :
    (StableHlo.held (c.tc : Thread nD τ) tailSet W : sProp 𝕄)
      = iprop((((c.tc : Thread nD τ).loc main_v6) ↦{fullShare} W (Proc.devRef .tc main_v6)) ∗ (((c.tc : Thread nD τ).loc main_v7) ↦{fullShare} W (Proc.devRef .tc main_v7))) := by
  unfold StableHlo.held tailSet
  rw [bigSep_eq_bigSepL_of_eq [Proc.devRef .tc main_v6, Proc.devRef .tc main_v7] (by decide) (by decide)]
  rfl

/-- What is handed back after the last host operation, besides the pipeline's arrays: the argument arrays as the
    region found them and the flat result as the operation wrote it. -/
def Zp (c : Dev nD) : sProp 𝕄 :=
  iprop((((c.tc : Thread nD τ).loc main_arg0) ↦{fullShare} V m c main_arg0) ∗ (((c.tc : Thread nD τ).loc main_arg1) ↦{fullShare} V m c main_arg1)
    ∗ (((c.tc : Thread nD τ).loc main_arg2) ↦{fullShare} V m c main_arg2) ∗ (((c.tc : Thread nD τ).loc main_arg3) ↦{fullShare} V m c main_arg3)
    ∗ (((c.tc : Thread nD τ).loc main_v7) ↦{fullShare} Wy m c (Proc.devRef .tc main_v7)))

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- The host operation after the region, run from the region's exit: it reads the result array out of the pipeline's
    arrays and writes the flat result among the buffers that bypassed the region. -/
theorem htail (c : Dev nD) (Q' : PUnit → sProp 𝕄) :
    iprop((iprop((dats m 0 c).arrays ((dats m 0 c).arrAt · cfg0.N) ∗ Zp m c) -∗ Q' ⟨⟩)
        ∗ boundary (c.tc : Thread nD τ) ∗ (dats m 0 c).arrays ((dats m 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  rw [arrays_eq', unscopedRest0_eq]
  unfold Zp
  rw [show (Pipeline.chain [StableHlo.seq (hostOps1 (F := F))]) = Pipeline.chain (([hostOps1] : List (List (HloOp τ sig (Elt F)))).map StableHlo.seq ++ []) from rfl]
  iintro ⟨Hk, Hb, ⟨A0, A1, A2, A3, A4⟩, ⟨R0, R1, R2, R3, Rv0, Rv2, Rv4, Rv7⟩⟩
  iapply (Pipeline.wp_seqs_then (fun q => (cfgs q).toPCfg (Val := Elt F)) defs₀ Variants.none c tailSet [] [hostOps1] (tail_sub) (tail_fresh) (Wx m c)) $$ [Hb A4 Rv7]
  · rw [held_tail, Wx_v6, Wx_v7]
    isplitl [Hb]; · iexact Hb
    isplitl [A4]; · iexact A4
    iexact Rv7
  iintro ⟨Hb, H⟩
  rw [Pipeline.chain_nil, wp_pure]
  imodintro
  iapply Hk
  have hh : (StableHlo.held (c.tc : Thread nD τ) tailSet (StableHlo.after ([hostOps1] : List (List (HloOp τ sig (Elt F)))).flatten (Wx m c)) : sProp 𝕄)
      ⊢ iprop((((c.tc : Thread nD τ).loc main_v6) ↦{fullShare} (dats m 0 c).arrAt 4 cfg0.N) ∗ (((c.tc : Thread nD τ).loc main_v7) ↦{fullShare} Wy m c (Proc.devRef .tc main_v7))) := by
    rw [show StableHlo.after ([hostOps1] : List (List (HloOp τ sig (Elt F)))).flatten (Wx m c) = Wy m c from rfl, held_tail, Wy_v6]
  ihave H' := hh $$ H
  icases H' with ⟨A4, Rv7⟩
  isplitl [A0 A1 A2 A3 A4]
  · isplitl [A0]; · iexact A0
    isplitl [A1]; · iexact A1
    isplitl [A2]; · iexact A2
    isplitl [A3]; · iexact A3
    iexact A4
  isplitl [R0]; · iexact R0
  isplitl [R1]; · iexact R1
  isplitl [R2]; · iexact R2
  isplitl [R3]; · iexact R3
  iexact Rv7

/-! ## The run -/

/-- What the final memory holds on core `c`: the flat result as the last host operation wrote it, the four argument
    arrays as the region found them. -/
def FinalAt (c : Dev nD) (s : MemSt nD τ sig (Elt F)) : Prop :=
  s.mem ((c.tc : Thread nD τ).loc main_v7) = Wy m c (Proc.devRef .tc main_v7)
    ∧ s.mem ((c.tc : Thread nD τ).loc main_arg0) = V m c main_arg0
    ∧ s.mem ((c.tc : Thread nD τ).loc main_arg1) = V m c main_arg1
    ∧ s.mem ((c.tc : Thread nD τ).loc main_arg2) = V m c main_arg2
    ∧ s.mem ((c.tc : Thread nD τ).loc main_arg3) = V m c main_arg3

/-- Reading the buffers handed back against the final memory. -/
theorem hY (c : Dev nD) (s' : Phys nD τ sig (Elt F)) :
    iprop((iprop(emp) : sProp 𝕄) ∗ Zp m c ∗ SI s') ⊢ |={Set.univ}=> iprop(⌜FinalAt m c s'.mem⌝ ∗ SI s') := by
  unfold Zp FinalAt
  iintro ⟨-, ⟨H0, H1, H2, H3, H7⟩, HSI⟩
  icombine HSI H0 gives %h0
  icombine HSI H1 gives %h1
  icombine HSI H2 gives %h2
  icombine HSI H3 gives %h3
  icombine HSI H7 gives %h7
  imodintro
  isplitr
  · ipureintro
    exact ⟨Buf.eq_of_forall_mem_univ h7, Buf.eq_of_forall_mem_univ h0, Buf.eq_of_forall_mem_univ h1, Buf.eq_of_forall_mem_univ h2, Buf.eq_of_forall_mem_univ h3⟩
  iexact HSI

set_option backward.isDefEq.respectTransparency.types false in
/-- At the compiled mesh, for any float values, from any memory with zero counters: every weakly fair execution of the
    program terminates, nothing faulting, and the final memory of every core is `FinalAt`. -/
theorem run_main : θ_run defs (onTc (τ := τ) (main (F := F))) (s₀ m ρ) (fun r => ∀ c : Dev nD, FinalAt m c r.2) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp)) (Z := fun c => Pipeline.unscopedRest spec0 c (V m c)) (Z' := Zp m)
    (hX := fun c => by
      rw [Pipeline.unscopedRestP_none]
      iintro H
      isplitr; · iempintro
      iexact H)
    (hin := fun c => show iprop((iprop(emp) : sProp 𝕄) ∗ Pipeline.prefHeld (Pipeline.Prefetch.none (sig := sig)) c (fun _ => fullShare.right) (fun k => k.elim0) ∗ Pipeline.scopedRest spec0 c) ⊢ (Pipeline.scopedRest spec0 c : sProp 𝕄) from by
      iintro ⟨-, -, HR⟩
      iexact HR)
    (hout := fun c => show (Pipeline.scopedRest spec0 c : sProp 𝕄) ⊢ iprop((iprop(emp) : sProp 𝕄) ∗ Pipeline.scopedRest spec0 c) from by
      iintro HR
      isplitr; · iempintro
      iexact HR)
    (htail := htail m)
    (QY := fun c s => FinalAt m c s)
    (hY := hY m)
    (hQ := fun s h c => (h c).2.2)

/-! ## The contents the run ends with, read back -/

/-- The host operations before the region write none of the argument arrays. -/
theorem V_main_arg0 (c : Dev nD) : V m c main_arg0 = m ((c.tc : Thread nD τ).loc main_arg0) := by
  show StableHlo.after hostOps0 (fun b => m (c, b)) (Proc.devRef .tc main_arg0) = _
  after_results
theorem V_main_arg1 (c : Dev nD) : V m c main_arg1 = m ((c.tc : Thread nD τ).loc main_arg1) := by
  show StableHlo.after hostOps0 (fun b => m (c, b)) (Proc.devRef .tc main_arg1) = _
  after_results
theorem V_main_arg2 (c : Dev nD) : V m c main_arg2 = m ((c.tc : Thread nD τ).loc main_arg2) := by
  show StableHlo.after hostOps0 (fun b => m (c, b)) (Proc.devRef .tc main_arg2) = _
  after_results
theorem V_main_arg3 (c : Dev nD) : V m c main_arg3 = m ((c.tc : Thread nD τ).loc main_arg3) := by
  show StableHlo.after hostOps0 (fun b => m (c, b)) (Proc.devRef .tc main_arg3) = _
  after_results

/-- The flat result is the result array, as the region left it, regrouped. -/
theorem Wy_v7 (c : Dev nD) :
    Wy m c (Proc.devRef .tc main_v7)
      = shapeCast S16384x2048 ((dats m 0 c).arrAt 4 cfg0.N : Vec F S8x2048x2048 .f32) shapeCasts_S8x2048x2048_S16384x2048 := by
  unfold Wy
  show StableHlo.after hostOps1 (Wx m c) (Proc.devRef .tc main_v7) = _
  after_results
  rw [Wx_v6]
  rfl

end Cert.KernelIdeal.Hand

end
-- ==== Proof.Spec.lean ====
/-
  The mathematics both programs compute, stated once over the three argument arrays as extended reals.

  Tokens are grouped by expert: expert `e` owns the 2048 consecutive rows `e * 2048 + t` of the token array.
  For one token row and one of the 4096 hidden columns `f` the gate and the up projections are inner products of the
  row with rows `f` and `4096 + f` of the expert's first weight matrix; the hidden activation is
  `gate * logistic gate * up`; the output entry `(e * 2048 + t, h)` is the inner product over all 4096 hidden
  columns of the activations with row `h` of the expert's second weight matrix.

  The same output entry is also the result of adding, eight times, the partial sum over one block of 512
  consecutive hidden columns to an accumulator that starts at zero (`acc`, `acc_eq_sum`): addition of extended
  reals is commutative and associative, which is all that regrouping a finite sum needs.
-/
import Idealize.ShloMosaic.PureOps.Ideal
import Idealize.ShloMosaic.Lib.ValueIdx

noncomputable section

namespace Cert.Spec

open Idealize.ShloMosaic Idealize.ShloMosaic.ValueIdx

/-- The token array, the gate/up weights and the down weights, as functions of their indices. -/
abbrev XArr : Type := (⟨2, ![16384, 2048]⟩ : Shape).Idx → EReal
abbrev WguArr : Type := (⟨3, ![8, 8192, 2048]⟩ : Shape).Idx → EReal
abbrev WdArr : Type := (⟨3, ![8, 2048, 4096]⟩ : Shape).Idx → EReal

/-- The row of expert `e`'s token `t` in the flat token array. -/
def row (e : Fin 8) (t : Fin 2048) : Fin 16384 := ⟨e.val * 2048 + t.val, by omega⟩
/-- Hidden column `f` in the gate half, and in the up half, of the first weight matrix's 8192 rows. -/
def gcol (f : Fin 4096) : Fin 8192 := ⟨f.val, by omega⟩
def ucol (f : Fin 4096) : Fin 8192 := ⟨4096 + f.val, by omega⟩

/-- The gate projection of one token at one hidden column. -/
def gate (x : XArr) (wgu : WguArr) (e : Fin 8) (t : Fin 2048) (f : Fin 4096) : EReal :=
  ∑ j : Fin 2048, x (ix2 (row e t) j) * wgu (ix3 e (gcol f) j)
/-- The up projection of one token at one hidden column. -/
def up (x : XArr) (wgu : WguArr) (e : Fin 8) (t : Fin 2048) (f : Fin 4096) : EReal :=
  ∑ j : Fin 2048, x (ix2 (row e t) j) * wgu (ix3 e (ucol f) j)
/-- The hidden activation: `silu(gate) * up`, with `silu z = z * logistic z`. -/
def hid (x : XArr) (wgu : WguArr) (e : Fin 8) (t : Fin 2048) (f : Fin 4096) : EReal :=
  gate x wgu e t f * Ideal.logistic (gate x wgu e t f) * up x wgu e t f
/-- One summand of the down projection. -/
def term (x : XArr) (wgu : WguArr) (wd : WdArr) (e : Fin 8) (t : Fin 2048) (h : Fin 2048) (f : Fin 4096) : EReal :=
  hid x wgu e t f * wd (ix3 e h f)
/-- The output entry of token `t` of expert `e` at column `h`. -/
def out (x : XArr) (wgu : WguArr) (wd : WdArr) (e : Fin 8) (t : Fin 2048) (h : Fin 2048) : EReal :=
  ∑ f : Fin 4096, term x wgu wd e t h f

/-- The whole result array, index by index. -/
def G (x : XArr) (wgu : WguArr) (wd : WdArr) : XArr := fun i =>
  out x wgu wd ⟨(i 0).val / 2048, by have := idx2_lt0 i; omega⟩ ⟨(i 0).val % 2048, by omega⟩ ⟨(i 1).val, idx2_lt1 i⟩

/-- Hidden column `k` of block `ft` (eight blocks of 512 columns). -/
def fcol (ft : Fin 8) (k : Fin 512) : Fin 4096 := ⟨ft.val * 512 + k.val, by omega⟩
/-- The partial sum of `g` over one block of 512 hidden columns. -/
def part (g : Fin 4096 → EReal) (ft : Fin 8) : EReal := ∑ k : Fin 512, g (fcol ft k)
/-- The accumulator after `n` blocks: zero, then one block's partial sum added at a time. -/
def acc (g : Fin 4096 → EReal) : (n : ℕ) → n ≤ 8 → EReal
  | 0, _ => 0
  | n + 1, h => acc g n (by omega) + part g ⟨n, by omega⟩

/-- Eight blocks of 512 columns added one block at a time give the sum over all 4096 columns: the pairs
    (ft, k) and the columns ft * 512 + k correspond one to one, and a finite sum in a commutative monoid does
    not depend on how it is grouped. -/
theorem acc_eq_sum (g : Fin 4096 → EReal) : acc g 8 (le_refl 8) = ∑ f : Fin 4096, g f := by
  have h1 : acc g 8 (le_refl 8) = ∑ ft : Fin 8, part g ft := by
    rw [Fin.sum_univ_eight]
    simp only [acc, zero_add]
    rfl
  rw [h1]
  unfold part
  rw [← Fintype.sum_prod_type']
  exact Fintype.sum_equiv (finProdFinEquiv (m := 8) (n := 512)) _ _ (fun x => by
    congr 1
    apply Fin.ext
    show x.1.val * 512 + x.2.val = x.2.val + 512 * x.1.val
    omega)

end Cert.Spec

end
-- ==== Proof.ValueKI.Defs.lean ====
/-
  Names for the value argument: the three argument arrays on a core as the specification's arrays, and a grid
  point's three coordinates (expert, half of the expert's tokens, block of hidden columns). The grid is 8 × 2 × 8,
  the hidden axis innermost, so point `t` is `e * 16 + half * 8 + block`.
-/
import proofs.«100458_j64750926954712_2_alg».proof.Proof.FrameKI.Data
import proofs.«100458_j64750926954712_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The token array, the gate/up weights and the down weights as launched on core `c`. -/
abbrev xA : Cert.Spec.XArr := m ((c.tc : Thread nD τ).loc main_arg0)
abbrev wguA : Cert.Spec.WguArr := m ((c.tc : Thread nD τ).loc main_arg1)
abbrev wdA : Cert.Spec.WdArr := m ((c.tc : Thread nD τ).loc main_arg2)

theorem lt128 (t : Fin cfg0.N) : t.val < 128 := lt_of_lt_of_eq t.isLt (show cfg0.N = 128 from N_0)

/-- The expert of grid point `t`. -/
def eOf (t : Fin cfg0.N) : Fin 8 := ⟨t.val / 16, by have := lt128 t; omega⟩
/-- The block of 512 hidden columns of grid point `t`. -/
def fOf (t : Fin cfg0.N) : Fin 8 := ⟨t.val % 8, by omega⟩
/-- The expert's token that row `r` of the point's block of 1024 tokens is. -/
def tokOf (t : Fin cfg0.N) (r : Fin 1024) : Fin 2048 := ⟨(t.val / 8 % 2) * 1024 + r.val, by omega⟩

end Cert.KernelIdeal.Val

end
-- ==== Proof.ValueKI.Blocks.lean ====
/-
  Each input window's block at a grid point, read at an index, is an entry of an ARGUMENT array: the host
  operations before the region only regroup the tokens by expert, transpose the two weight arrays (so that the
  contracted axis comes first) and change the float format, which at the ideal instance is the identity.
-/
import proofs.«100458_j64750926954712_2_alg».proof.Proof.ValueKI.Defs
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.ShloMosaic.Tactic
open Idealize.SL Idealize.SL.Sem
open Idealize.ShloMosaic.Pipeline (Dat Cfg Window)

variable (m : (ℓ : Loc nD τ sig) → Buf (Elt Ideal) ℓ) (c : Dev nD)

/-! ## The arrays the region finds: the host operations before it, applied to the launch memory -/

/-- The token array regrouped by expert (and its format changed). -/
theorem V_v1 : (V m c main_v1 : S8x2048x2048.Idx → EReal)
    = truncf (F := Ideal) .bf16 (shapeCast S8x2048x2048 (m ((c.tc : Thread nD τ).loc main_arg0)) shapeCasts_S16384x2048_S8x2048x2048) bitsLt_bf16_f32 := by
  show StableHlo.after hostOps0 (fun b => m (c, b)) (Proc.devRef .tc main_v1) = _
  after_results
  rfl

/-- The first weight array with its last two axes exchanged (and its format changed). -/
theorem V_v3 : (V m c main_v3 : S8x2048x8192.Idx → EReal)
    = truncf (F := Ideal) .bf16 (transpose S8x2048x8192 [0, 2, 1] (m ((c.tc : Thread nD τ).loc main_arg1)) transposes_S8x8192x2048_S8x2048x8192_0_2_1) bitsLt_bf16_f32 := by
  show StableHlo.after hostOps0 (fun b => m (c, b)) (Proc.devRef .tc main_v3) = _
  after_results

/-- The second weight array with its last two axes exchanged (and its format changed). -/
theorem V_v5 : (V m c main_v5 : S8x4096x2048.Idx → EReal)
    = truncf (F := Ideal) .bf16 (transpose S8x4096x2048 [0, 2, 1] (m ((c.tc : Thread nD τ).loc main_arg2)) transposes_S8x2048x4096_S8x4096x2048_0_2_1) bitsLt_bf16_f32 := by
  show StableHlo.after hostOps0 (fun b => m (c, b)) (Proc.devRef .tc main_v5) = _
  after_results

/-! ## The windows' block indices over the grid

Point t of the 8 × 2 × 8 grid is (t / 16, t / 8 % 2, t % 8). -/

theorem idx0 : ∀ t : Fin cfg0.N, win0_0.index t (0 : Fin 3) = t.val / 16 ∧ win0_0.index t (1 : Fin 3) = t.val / 8 % 2 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = 0 ∧ win0_1.index t (2 : Fin 3) = t.val % 8 :=
  (by decide +kernel : ∀ t : Fin grid0.N, _)
theorem idx2 : ∀ t : Fin cfg0.N, win0_2.index t (0 : Fin 3) = t.val / 16 ∧ win0_2.index t (1 : Fin 3) = 0 ∧ win0_2.index t (2 : Fin 3) = 8 + t.val % 8 :=
  (by decide +kernel : ∀ t : Fin grid0.N, _)
theorem idx3 : ∀ t : Fin cfg0.N, win0_3.index t (0 : Fin 3) = t.val / 16 ∧ win0_3.index t (1 : Fin 3) = t.val % 8 ∧ win0_3.index t (2 : Fin 3) = 0 :=
  (by decide +kernel : ∀ t : Fin grid0.N, _)

/-! ## Each block read off its array: block index times block size plus the coordinate inside the block -/

theorem blk0_read (t : Fin cfg0.N) (r : Fin 1024) (j : Fin 2048) :
    iblk (F := Ideal) m c 0 t (ix3 (0 : Fin 1) r j) = (V m c main_v1 : S8x2048x2048.Idx → EReal) (ix3 (eOf t) (tokOf t r) j) := by
  obtain ⟨e0, e1, e2⟩ := idx0 t
  unfold iblk
  rw [View.read_apply]
  show V m c main_v1 (((cfg0.win 0).blk t).view.emb (ix3 (0 : Fin 1) r j)) = _
  refine congrArg (V m c main_v1) (funext fun a => Fin.ext ?_)
  match a with
  | ⟨0, _⟩ => show win0_0.index t (0 : Fin 3) * 1 + 1 * (0 : Fin 1).val = t.val / 16; rw [e0]; simp
  | ⟨1, _⟩ => show win0_0.index t (1 : Fin 3) * 1024 + 1 * r.val = (t.val / 8 % 2) * 1024 + r.val; rw [e1]; omega
  | ⟨2, _⟩ => show win0_0.index t (2 : Fin 3) * 2048 + 1 * j.val = j.val; rw [e2]; omega

theorem blk1_read (t : Fin cfg0.N) (j : Fin 2048) (k : Fin 512) :
    iblk (F := Ideal) m c 1 t (ix3 (0 : Fin 1) j k)
      = (V m c main_v3 : S8x2048x8192.Idx → EReal) (ix3 (eOf t) j (Cert.Spec.gcol (Cert.Spec.fcol (fOf t) k))) := by
  obtain ⟨e0, e1, e2⟩ := idx1 t
  unfold iblk
  rw [View.read_apply]
  show V m c main_v3 (((cfg0.win 1).blk t).view.emb (ix3 (0 : Fin 1) j k)) = _
  refine congrArg (V m c main_v3) (funext fun a => Fin.ext ?_)
  match a with
  | ⟨0, _⟩ => show win0_1.index t (0 : Fin 3) * 1 + 1 * (0 : Fin 1).val = t.val / 16; rw [e0]; simp
  | ⟨1, _⟩ => show win0_1.index t (1 : Fin 3) * 2048 + 1 * j.val = j.val; rw [e1]; omega
  | ⟨2, _⟩ => show win0_1.index t (2 : Fin 3) * 512 + 1 * k.val = (t.val % 8) * 512 + k.val; rw [e2]; omega

theorem blk2_read (t : Fin cfg0.N) (j : Fin 2048) (k : Fin 512) :
    iblk (F := Ideal) m c 2 t (ix3 (0 : Fin 1) j k)
      = (V m c main_v3 : S8x2048x8192.Idx → EReal) (ix3 (eOf t) j (Cert.Spec.ucol (Cert.Spec.fcol (fOf t) k))) := by
  obtain ⟨e0, e1, e2⟩ := idx2 t
  unfold iblk
  rw [View.read_apply]
  show V m c main_v3 (((cfg0.win 2).blk t).view.emb (ix3 (0 : Fin 1) j k)) = _
  refine congrArg (V m c main_v3) (funext fun a => Fin.ext ?_)
  match a with
  | ⟨0, _⟩ => show win0_2.index t (0 : Fin 3) * 1 + 1 * (0 : Fin 1).val = t.val / 16; rw [e0]; simp
  | ⟨1, _⟩ => show win0_2.index t (1 : Fin 3) * 2048 + 1 * j.val = j.val; rw [e1]; omega
  | ⟨2, _⟩ => show win0_2.index t (2 : Fin 3) * 512 + 1 * k.val = 4096 + ((t.val % 8) * 512 + k.val); rw [e2]; omega

theorem blk3_read (t : Fin cfg0.N) (k : Fin 512) (h : Fin 2048) :
    iblk (F := Ideal) m c 3 t (ix3 (0 : Fin 1) k h)
      = (V m c main_v5 : S8x4096x2048.Idx → EReal) (ix3 (eOf t) (Cert.Spec.fcol (fOf t) k) h) := by
  obtain ⟨e0, e1, e2⟩ := idx3 t
  unfold iblk
  rw [View.read_apply]
  show V m c main_v5 (((cfg0.win 3).blk t).view.emb (ix3 (0 : Fin 1) k h)) = _
  refine congrArg (V m c main_v5) (funext fun a => Fin.ext ?_)
  match a with
  | ⟨0, _⟩ => show win0_3.index t (0 : Fin 3) * 1 + 1 * (0 : Fin 1).val = t.val / 16; rw [e0]; simp
  | ⟨1, _⟩ => show win0_3.index t (1 : Fin 3) * 512 + 1 * k.val = (t.val % 8) * 512 + k.val; rw [e1]; omega
  | ⟨2, _⟩ => show win0_3.index t (2 : Fin 3) * 2048 + 1 * h.val = h.val; rw [e2]; omega

/-! ## The blocks as entries of the argument arrays -/

/-- The token block: row `r`, column `j` is the token array at the expert's token, column `j`. -/
theorem blk0_apply (t : Fin cfg0.N) (r : Fin 1024) (j : Fin 2048) :
    iblk (F := Ideal) m c 0 t (ix3 (0 : Fin 1) r j) = xA m c (ix2 (Cert.Spec.row (eOf t) (tokOf t r)) j) := by
  rw [blk0_read, V_v1]
  refine (truncf_apply (ψ := .bf16) (φ := .f32) _ bitsLt_bf16_f32 _).trans ?_
  refine shapeCast_apply _ _ _ _ ?_
  show (S16384x2048.rowMajor (ix2 (Cert.Spec.row (eOf t) (tokOf t r)) j)).val = (S8x2048x2048.rowMajor (ix3 (eOf t) (tokOf t r) j)).val
  rw [Shape.rowMajor_val_two, Shape.rowMajor_val_three]
  show ((eOf t).val * 2048 + (tokOf t r).val) * 2048 + j.val = ((eOf t).val * 2048 + (tokOf t r).val) * 2048 + j.val
  rfl

/-- The gate block (transposed weights): entry `(j, k)` is the first weight matrix at hidden column `k` of the point's
    block in the gate half, input column `j`. -/
theorem blk1_apply (t : Fin cfg0.N) (j : Fin 2048) (k : Fin 512) :
    iblk (F := Ideal) m c 1 t (ix3 (0 : Fin 1) j k) = wguA m c (ix3 (eOf t) (Cert.Spec.gcol (Cert.Spec.fcol (fOf t) k)) j) := by
  rw [blk1_read, V_v3]
  refine (truncf_apply (ψ := .bf16) (φ := .f32) _ bitsLt_bf16_f32 _).trans ?_
  exact transpose_ix3_021_apply _ _ _ _ _

/-- The up block: the same in the up half. -/
theorem blk2_apply (t : Fin cfg0.N) (j : Fin 2048) (k : Fin 512) :
    iblk (F := Ideal) m c 2 t (ix3 (0 : Fin 1) j k) = wguA m c (ix3 (eOf t) (Cert.Spec.ucol (Cert.Spec.fcol (fOf t) k)) j) := by
  rw [blk2_read, V_v3]
  refine (truncf_apply (ψ := .bf16) (φ := .f32) _ bitsLt_bf16_f32 _).trans ?_
  exact transpose_ix3_021_apply _ _ _ _ _

/-- The down block (transposed weights): entry `(k, h)` is the second weight matrix at output column `h`, hidden column
    `k` of the point's block. -/
theorem blk3_apply (t : Fin cfg0.N) (k : Fin 512) (h : Fin 2048) :
    iblk (F := Ideal) m c 3 t (ix3 (0 : Fin 1) k h) = wdA m c (ix3 (eOf t) h (Cert.Spec.fcol (fOf t) k)) := by
  rw [blk3_read, V_v5]
  refine (truncf_apply (ψ := .bf16) (φ := .f32) _ bitsLt_bf16_f32 _).trans ?_
  exact transpose_ix3_021_apply _ _ _ _ _

end Cert.KernelIdeal.Val

end
-- ==== Proof.Payload.lean ====
import proofs.«100458_j64750926954712_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-
  The two values the kernel stores into its output block, read entry by entry at the extended reals.

  The first store (at the first block of hidden columns) writes the zero array. The second store writes, at row `r`
  and column `h` of the block, the entry already there plus the sum over the block's 512 hidden columns `k` of
  `g * logistic g * u` times the down weight at `(k, h)`, where `g` and `u` are the inner products of token row `r`
  with column `k` of the gate and of the up weight blocks. A leading axis of extent one is dropped from, or added to,
  an array without moving any entry; a change of float format is the identity on extended reals; a matrix product into
  the zero accumulator is the sum over the contracted axis of the products of the operands' entries.
-/

noncomputable section

namespace Cert.KernelIdeal.Pay

open Cert.KernelIdeal Cert.KernelIdeal.Gen Idealize.ShloMosaic Idealize.ShloMosaic.ValueIdx
open scoped BigOperators

/-! ## The operand indices of the two products

Both products contract the left operand's axis 1 with the right operand's axis 0; the result's axis 0 is the left
operand's axis 0 and its axis 1 the right operand's axis 1. -/

/-- First product, left operand: axis 0 is the result's row. -/
theorem lhs1_0 (i : S1024x512.Idx) (q : dot_S1024x2048_S2048x512_S1024x512_1_0_0_1_n_n.contr.Idx) : (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
/-- First product, left operand: axis 1 is the contracted position. -/
theorem lhs1_1 (i : S1024x512.Idx) (q : dot_S1024x2048_S2048x512_S1024x512_1_0_0_1_n_n.contr.Idx) : (dot_S1024x2048_S2048x512_S1024x512_1_0_0_1_n_n.lhsIdx i q 1).val = (q ⟨0, by decide⟩).val :=
  dot_S1024x2048_S2048x512_S1024x512_1_0_0_1_n_n.lhsIdx_val_of_single rfl i q
/-- First product, right operand: axis 0 is the contracted position. -/
theorem rhs1_0 (i : S1024x512.Idx) (q : dot_S1024x2048_S2048x512_S1024x512_1_0_0_1_n_n.contr.Idx) : (dot_S1024x2048_S2048x512_S1024x512_1_0_0_1_n_n.rhsIdx i q 0).val = (q ⟨0, by decide⟩).val :=
  dot_S1024x2048_S2048x512_S1024x512_1_0_0_1_n_n.rhsIdx_val_of_single rfl i q
/-- First product, right operand: axis 1 is the result's column. -/
theorem rhs1_1 (i : S1024x512.Idx) (q : dot_S1024x2048_S2048x512_S1024x512_1_0_0_1_n_n.contr.Idx) : (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- Second product, left operand: axis 0 is the result's row. -/
theorem lhs2_0 (i : S1024x2048.Idx) (q : dot_S1024x512_S512x2048_S1024x2048_1_0_0_1_n_n.contr.Idx) : (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
/-- Second product, left operand: axis 1 is the contracted position. -/
theorem lhs2_1 (i : S1024x2048.Idx) (q : dot_S1024x512_S512x2048_S1024x2048_1_0_0_1_n_n.contr.Idx) : (dot_S1024x512_S512x2048_S1024x2048_1_0_0_1_n_n.lhsIdx i q 1).val = (q ⟨0, by decide⟩).val :=
  dot_S1024x512_S512x2048_S1024x2048_1_0_0_1_n_n.lhsIdx_val_of_single rfl i q
/-- Second product, right operand: axis 0 is the contracted position. -/
theorem rhs2_0 (i : S1024x2048.Idx) (q : dot_S1024x512_S512x2048_S1024x2048_1_0_0_1_n_n.contr.Idx) : (dot_S1024x512_S512x2048_S1024x2048_1_0_0_1_n_n.rhsIdx i q 0).val = (q ⟨0, by decide⟩).val :=
  dot_S1024x512_S512x2048_S1024x2048_1_0_0_1_n_n.rhsIdx_val_of_single rfl i q
/-- Second product, right operand: axis 1 is the result's column. -/
theorem rhs2_1 (i : S1024x2048.Idx) (q : dot_S1024x512_S512x2048_S1024x2048_1_0_0_1_n_n.contr.Idx) : (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The product of a 1024 × 2048 matrix with a 2048 × 512 matrix into the zero accumulator, entry by entry. -/
theorem mm1_apply (lhs : FVec Ideal S1024x2048 .bf16) (rhs : FVec Ideal S2048x512 .bf16) (r : Fin 1024) (k : Fin 512) :
    matmul dot_S1024x2048_S2048x512_S1024x512_1_0_0_1_n_n none lhs rhs (constant (F := Ideal) S1024x512 .f32 0x00000000#32) (ix2 r k)
      = ∑ j : Fin 2048, lhs (ix2 r j) * rhs (ix2 j k) := by
  show FloatOps.matmul dot_S1024x2048_S2048x512_S1024x512_1_0_0_1_n_n none lhs rhs (constant (F := Ideal) S1024x512 .f32 0x00000000#32) (ix2 r k) = _
  rw [Ideal.matmul_constant_zero_apply, ← Equiv.sum_comp (contrEquiv1 dot_S1024x2048_S2048x512_S1024x512_1_0_0_1_n_n 2048 rfl rfl).symm]
  refine Finset.sum_congr rfl fun j _ => ?_
  have hk := contrEquiv1_symm_val dot_S1024x2048_S2048x512_S1024x512_1_0_0_1_n_n 2048 rfl rfl j
  have el : dot_S1024x2048_S2048x512_S1024x512_1_0_0_1_n_n.lhsIdx (ix2 r k) ((contrEquiv1 dot_S1024x2048_S2048x512_S1024x512_1_0_0_1_n_n 2048 rfl rfl).symm j) = ix2 r j := funext fun a => Fin.ext (by
    match a with
    | ⟨0, _⟩ => exact lhs1_0 _ _
    | ⟨1, _⟩ => exact (lhs1_1 _ _).trans hk)
  have er : dot_S1024x2048_S2048x512_S1024x512_1_0_0_1_n_n.rhsIdx (ix2 r k) ((contrEquiv1 dot_S1024x2048_S2048x512_S1024x512_1_0_0_1_n_n 2048 rfl rfl).symm j) = ix2 j k := funext fun a => Fin.ext (by
    match a with
    | ⟨0, _⟩ => exact (rhs1_0 _ _).trans hk
    | ⟨1, _⟩ => exact rhs1_1 _ _)
  rw [el, er]

/-- The product of a 1024 × 512 matrix with a 512 × 2048 matrix into the zero accumulator, entry by entry. -/
theorem mm2_apply (lhs : FVec Ideal S1024x512 .bf16) (rhs : FVec Ideal S512x2048 .bf16) (r : Fin 1024) (h : Fin 2048) :
    matmul dot_S1024x512_S512x2048_S1024x2048_1_0_0_1_n_n none lhs rhs (constant (F := Ideal) S1024x2048 .f32 0x00000000#32) (ix2 r h)
      = ∑ k : Fin 512, lhs (ix2 r k) * rhs (ix2 k h) := by
  show FloatOps.matmul dot_S1024x512_S512x2048_S1024x2048_1_0_0_1_n_n none lhs rhs (constant (F := Ideal) S1024x2048 .f32 0x00000000#32) (ix2 r h) = _
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 r h) ((contrEquiv1 dot_S1024x512_S512x2048_S1024x2048_1_0_0_1_n_n 512 rfl rfl).symm k) = ix2 r k := funext fun a => Fin.ext (by
    match a with
    | ⟨0, _⟩ => exact lhs2_0 _ _
    | ⟨1, _⟩ => exact (lhs2_1 _ _).trans hk)
  have er : dot_S1024x512_S512x2048_S1024x2048_1_0_0_1_n_n.rhsIdx (ix2 r h) ((contrEquiv1 dot_S1024x512_S512x2048_S1024x2048_1_0_0_1_n_n 512 rfl rfl).symm k) = ix2 k h := funext fun a => Fin.ext (by
    match a with
    | ⟨0, _⟩ => exact (rhs2_0 _ _).trans hk
    | ⟨1, _⟩ => exact rhs2_1 _ _)
  rw [el, er]

/-- The first store writes zero everywhere. -/
theorem pay1_apply (i : S1x1024x2048.Idx) : k0_pay1 (F := Ideal) i = 0 := by
  obtain ⟨a, b, c, rfl⟩ : ∃ (a : Fin 1) (b : Fin 1024) (c : Fin 2048), i = ix3 a b c := ⟨_, _, _, eq_ix3 i⟩
  unfold k0_pay1
  refine (shapeCast_ab_1ab_apply _ _ a b c).trans ?_
  exact Ideal.ofBits_zero_f32

/-- The second store: the accumulator block entry plus the partial down-projection over this block of 512 hidden
    columns. -/
theorem pay2_apply (v3 : Vec Ideal S1x1024x2048 .bf16) (v5 v7 : Vec Ideal S1x2048x512 .bf16) (v9 : Vec Ideal S1x512x2048 .bf16) (v18 : Vec Ideal S1x1024x2048 .f32) (r : Fin 1024) (h : Fin 2048) :
      k0_pay2 (F := Ideal) v3 v5 v7 v9 v18 (ix3 (0 : Fin 1) r h)
        = v18 (ix3 (0 : Fin 1) r h)
          + ∑ k : Fin 512,
              ((∑ j : Fin 2048, v3 (ix3 (0 : Fin 1) r j) * v5 (ix3 (0 : Fin 1) j k))
                * Ideal.logistic (∑ j : Fin 2048, v3 (ix3 (0 : Fin 1) r j) * v5 (ix3 (0 : Fin 1) j k))
                * (∑ j : Fin 2048, v3 (ix3 (0 : Fin 1) r j) * v7 (ix3 (0 : Fin 1) j k)))
              * v9 (ix3 (0 : Fin 1) k h) := by
  unfold k0_pay2
  refine (shapeCast_ab_1ab_apply _ _ (0 : Fin 1) r h).trans ?_
  refine (addf_apply _ _ _).trans ?_
  refine congrArg₂ (· + ·) (shapeCast_1ab_ab_apply v18 _ r h) ?_
  refine (mm2_apply _ _ r h).trans ?_
  refine Finset.sum_congr rfl fun k _ => ?_
  refine congrArg₂ (· * ·) ?_ (shapeCast_1ab_ab_apply v9 _ k h)
  have hg : ∀ (w : Vec Ideal S1x2048x512 .bf16),
      matmul dot_S1024x2048_S2048x512_S1024x512_1_0_0_1_n_n none (shapeCast S1024x2048 v3 shapeCasts_S1x1024x2048_S1024x2048)
          (shapeCast S2048x512 w shapeCasts_S1x2048x512_S2048x512) (constant (F := Ideal) S1024x512 .f32 0x00000000#32) (ix2 r k)
        = ∑ j : Fin 2048, v3 (ix3 (0 : Fin 1) r j) * w (ix3 (0 : Fin 1) j k) := fun w =>
    (mm1_apply _ _ r k).trans (Finset.sum_congr rfl fun j _ =>
      congrArg₂ (· * ·) (shapeCast_1ab_ab_apply v3 _ r j) (shapeCast_1ab_ab_apply w _ j k))
  refine (truncf_apply (ψ := .bf16) (φ := .f32) _ bitsLt_bf16_f32 (ix2 r k)).trans ?_
  refine (mulf_apply _ _ _).trans ?_
  refine congrArg₂ (· * ·) ?_ (hg v7)
  refine (mulf_apply _ _ _).trans ?_
  refine congrArg₂ (· * ·) (hg v5) ?_
  show Ideal.logistic _ = _
  exact congrArg Ideal.logistic (hg v5)

end Cert.KernelIdeal.Pay

end
-- ==== Proof.ValueKI.Acc.lean ====
/-
  What the output block's staging buffer holds after each grid point, index by index: the accumulator of the
  specification after the point's block of hidden columns — zero plus the first block's partial sum at a first step,
  the previous step's value plus this block's partial sum afterwards.
-/
import proofs.«100458_j64750926954712_2_alg».proof.Proof.ValueKI.Blocks
import proofs.«100458_j64750926954712_2_alg».proof.Proof.Payload
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

/-- The three offsets of a whole-block access are zero. -/
theorem hz3 : (![0, 0, 0] : Fin 3 → Nat) = fun _ => 0 := funext fun a => by fin_cases a <;> rfl

/-- A later step leaves the block it found plus this step's partial product: its one store covers the block, and its
    loads read the whole buffers. -/
theorem out_B {F : FTy → Type} [FloatOps F] (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : ¬cond0_0 i)
    (x0 : Vec F S1x1024x2048 .bf16) (x1 : Vec F S1x2048x512 .bf16) (x2 : Vec F S1x2048x512 .bf16) (x3 : Vec F S1x512x2048 .bf16) (xo4 : Vec F S1x1024x2048 .f32) :
    out0_B_4 c i arg3 harg3 arg4 harg4 arg5 harg5 arg6 harg6 arg7 harg7 hc0 x0 x1 x2 x3 xo4 = k0_pay2 x0 x1 x2 x3 xo4 := by
  unfold out0_B_4
  rw [View.read_writes_eq_canon _ _ _ (cover0_B_4 c i arg3 harg3 arg4 harg4 arg5 harg5 arg6 harg6 arg7 harg7 hc0 x0 x1 x2 x3 xo4)]
  unfold kernelRun0_B
  dsimp only
  rw [View.canon_unit_zero hz3]
  simp only [View.readAt_eq_ld, harg3.read_unread, harg4.read_unread, harg5.read_unread, harg6.read_unread, harg7.read_unread,
    View.ld_unit_zero (S := S1x1024x2048) hz3, View.ld_unit_zero (S := S1x2048x512) hz3, View.ld_unit_zero (S := S1x512x2048) hz3]

/-- A first step stores the zero block, reads it back, and leaves it plus this step's partial product. -/
theorem out_A {F : FTy → Type} [FloatOps F] (c : Dev nD) (i : grid0.Coords) (arg3 : Memref sig .tc .vmem S1x1024x2048 .bf16) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x1024x2048 .f32) (harg7 : arg7.IsWhole) (hc0 : cond0_0 i)
    (x0 : Vec F S1x1024x2048 .bf16) (x1 : Vec F S1x2048x512 .bf16) (x2 : Vec F S1x2048x512 .bf16) (x3 : Vec F S1x512x2048 .bf16) :
    out0_A_4 c i arg3 harg3 arg4 harg4 arg5 harg5 arg6 harg6 arg7 harg7 hc0 x0 x1 x2 x3 = k0_pay2 x0 x1 x2 x3 k0_pay1 := by
  unfold out0_A_4
  rw [View.read_writes_eq_canon _ _ _ (cover0_A_4 c i arg3 harg3 arg4 harg4 arg5 harg5 arg6 harg6 arg7 harg7 hc0 x0 x1 x2 x3)]
  unfold kernelRun0_A
  dsimp only
  sl_unfold_words
  rw [View.canon_cons_unit_zero (S := S1x1024x2048) hz3, View.readCov_unit_zero (S := S1x1024x2048) _ hz3]
  simp only [View.readAt_eq_ld, harg3.read_unread, harg4.read_unread, harg5.read_unread, harg6.read_unread,
    View.ld_unit_zero (S := S1x1024x2048) hz3, View.ld_unit_zero (S := S1x2048x512) hz3, View.ld_unit_zero (S := S1x512x2048) hz3]

variable (m : (ℓ : Loc nD τ sig) → Buf (Elt Ideal) ℓ) (c : Dev nD)

/-- The second store's entry at row r and column h, for blocks that are entries of the argument arrays: the entry
    already there plus the partial sum of the specification's summands over the block's 512 hidden columns. -/
theorem pay2_entry (X0 : Vec Ideal S1x1024x2048 .bf16) (X1 X2 : Vec Ideal S1x2048x512 .bf16) (X3 : Vec Ideal S1x512x2048 .bf16)
    (v18 : Vec Ideal S1x1024x2048 .f32)
    (x : Cert.Spec.XArr) (wgu : Cert.Spec.WguArr) (wd : Cert.Spec.WdArr) (e : Fin 8) (tk : Fin 2048) (fb : Fin 8)
    (r : Fin 1024) (h : Fin 2048)
    (h0 : ∀ j, X0 (ix3 (0 : Fin 1) r j) = x (ix2 (Cert.Spec.row e tk) j))
    (h1 : ∀ j k, X1 (ix3 (0 : Fin 1) j k) = wgu (ix3 e (Cert.Spec.gcol (Cert.Spec.fcol fb k)) j))
    (h2 : ∀ j k, X2 (ix3 (0 : Fin 1) j k) = wgu (ix3 e (Cert.Spec.ucol (Cert.Spec.fcol fb k)) j))
    (h3 : ∀ k, X3 (ix3 (0 : Fin 1) k h) = wd (ix3 e h (Cert.Spec.fcol fb k))) :
    k0_pay2 (F := Ideal) X0 X1 X2 X3 v18 (ix3 (0 : Fin 1) r h)
      = v18 (ix3 (0 : Fin 1) r h) + Cert.Spec.part (Cert.Spec.term x wgu wd e tk h) fb := by
  refine (Cert.KernelIdeal.Pay.pay2_apply X0 X1 X2 X3 v18 r h).trans ?_
  refine congrArg (fun z => v18 (ix3 (0 : Fin 1) r h) + z) ?_
  unfold Cert.Spec.part
  refine Finset.sum_congr rfl fun k _ => ?_
  unfold Cert.Spec.term Cert.Spec.hid Cert.Spec.gate Cert.Spec.up
  simp only [h0, h1, h2, h3]

/-- A first step leaves zero plus the step's partial sum. -/
theorem step_A (t : Fin cfg0.N) (h0 : t.val % 8 = 0) (r : Fin 1024) (h : Fin 2048) :
    outsAt0 (F := Ideal) m c t.val t.isLt (ix3 (0 : Fin 1) r h)
      = 0 + Cert.Spec.part (Cert.Spec.term (xA m c) (wguA m c) (wdA m c) (eOf t) (tokOf t r) h) (fOf t) := by
  have e1 := (outsAt0_A m c t h0).trans (out_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t))
  refine (congrFun e1 _).trans ?_
  refine (pay2_entry (iblk m c 0 t) (iblk m c 1 t) (iblk m c 2 t) (iblk m c 3 t) (k0_pay1 (F := Ideal)) (xA m c) (wguA m c) (wdA m c) (eOf t) (tokOf t r) (fOf t) r h
    (fun j => blk0_apply m c t r j) (fun j k => blk1_apply m c t j k) (fun j k => blk2_apply m c t j k)
    (fun k => blk3_apply m c t k h)).trans ?_
  rw [Cert.KernelIdeal.Pay.pay1_apply]

/-- A later step leaves what the step before left plus the step's partial sum. -/
theorem step_B (t : Fin cfg0.N) (h0 : ¬t.val % 8 = 0) (r : Fin 1024) (h : Fin 2048) :
    outsAt0 (F := Ideal) m c t.val t.isLt (ix3 (0 : Fin 1) r h)
      = outsAt0 (F := Ideal) m c (t.val - 1) (Nat.lt_of_le_of_lt (Nat.sub_le _ _) t.isLt) (ix3 (0 : Fin 1) r h)
        + Cert.Spec.part (Cert.Spec.term (xA m c) (wguA m c) (wdA m c) (eOf t) (tokOf t r) h) (fOf t) := by
  have e1 := (outsAt0_B m c t h0).trans (out_B (F := Ideal) c (grid0.coords t) (ms0_0 t) (hs0_0 t) (ms0_1 t) (hs0_1 t) (ms0_2 t) (hs0_2 t) (ms0_3 t) (hs0_3 t) (ms0_4 t) (hs0_4 t) (fun hh => h0 ((hcond0_0 t).mp hh)) (iblk m c 0 t) (iblk m c 1 t) (iblk m c 2 t) (iblk m c 3 t)
    (outsAt0 m c (t.val - 1) (Nat.lt_of_le_of_lt (Nat.sub_le _ _) t.isLt)))
  refine (congrFun e1 _).trans ?_
  exact pay2_entry (iblk m c 0 t) (iblk m c 1 t) (iblk m c 2 t) (iblk m c 3 t) (outsAt0 m c (t.val - 1) (Nat.lt_of_le_of_lt (Nat.sub_le _ _) t.isLt))
    (xA m c) (wguA m c) (wdA m c) (eOf t) (tokOf t r) (fOf t) r h
    (fun j => blk0_apply m c t r j) (fun j k => blk1_apply m c t j k) (fun j k => blk2_apply m c t j k)
    (fun k => blk3_apply m c t k h)

/-- One more block: the accumulator after k + 1 blocks is the accumulator after k blocks plus block k's partial sum. -/
theorem acc_succ' (g : Fin 4096 → EReal) (k : ℕ) (hk : k + 1 ≤ 8) :
    Cert.Spec.acc g (k + 1) hk = Cert.Spec.acc g k (by omega) + Cert.Spec.part g ⟨k, by omega⟩ := rfl
/-- The accumulator depends on the number of blocks only. -/
theorem acc_congr (g : Fin 4096 → EReal) {k k' : ℕ} (hk : k ≤ 8) (hk' : k' ≤ 8) (e : k = k') :
    Cert.Spec.acc g k hk = Cert.Spec.acc g k' hk' := by subst e; rfl

/-- By induction on the grid point: within one expert and one half of its tokens the eight steps along the hidden
    axis add the eight blocks' partial sums in order. -/
theorem outsAt_eq_nat : ∀ (n : ℕ) (hn : n < cfg0.N) (r : Fin 1024) (h : Fin 2048),
    outsAt0 (F := Ideal) m c n hn (ix3 (0 : Fin 1) r h)
      = Cert.Spec.acc (Cert.Spec.term (xA m c) (wguA m c) (wdA m c) (eOf ⟨n, hn⟩) (tokOf ⟨n, hn⟩ r) h) (n % 8 + 1) (by omega) := by
  intro n
  induction n with
  | zero =>
    intro hn r h
    refine (step_A m c ⟨0, hn⟩ rfl r h).trans ?_
    rfl
  | succ n ih =>
    intro hn r h
    by_cases h0 : (n + 1) % 8 = 0
    · refine (step_A m c ⟨n + 1, hn⟩ h0 r h).trans ?_
      refine Eq.trans ?_ (acc_succ' _ ((n + 1) % 8) (by omega)).symm
      refine congrArg₂ (· + ·) ?_ rfl
      exact ((acc_congr _ (by omega) (Nat.zero_le 8) h0).trans rfl).symm
    · refine (step_B m c ⟨n + 1, hn⟩ h0 r h).trans ?_
      refine Eq.trans ?_ (acc_succ' _ ((n + 1) % 8) (by omega)).symm
      refine congrArg₂ (· + ·) ?_ rfl
      refine (ih (Nat.lt_of_succ_lt hn) r h).trans ?_
      have he : eOf ⟨n, Nat.lt_of_succ_lt hn⟩ = eOf ⟨n + 1, hn⟩ := Fin.ext (by show n / 16 = (n + 1) / 16; omega)
      have ht : tokOf ⟨n, Nat.lt_of_succ_lt hn⟩ r = tokOf ⟨n + 1, hn⟩ r :=
        Fin.ext (by show (n / 8 % 2) * 1024 + r.val = ((n + 1) / 8 % 2) * 1024 + r.val; omega)
      rw [he, ht]
      exact acc_congr _ _ _ (by omega)

/-- After grid point `t` the output block's entry `(r, h)` is the specification's accumulator, for the expert's token
    that row `r` is and output column `h`, after `t % 8 + 1` blocks of hidden columns. -/
theorem outsAt_eq (t : Fin cfg0.N) (r : Fin 1024) (h : Fin 2048) :
    outsAt0 (F := Ideal) m c t.val t.isLt (ix3 (0 : Fin 1) r h)
      = Cert.Spec.acc (Cert.Spec.term (xA m c) (wguA m c) (wdA m c) (eOf t) (tokOf t r) h) (t.val % 8 + 1) (by omega) :=
  outsAt_eq_nat m c t.val t.isLt r h

end Cert.KernelIdeal.Val

end
-- ==== Proof.ValueKI.Final.lean ====
/-
  From blocks to the array: the output block is written back after the eighth step along the hidden axis, when its
  accumulator is the full sum over the 4096 hidden columns; the blocks written back tile the result array, so the
  array after the region is the specification's output, and regrouped as a flat token array it is the specification's
  result.
-/
import proofs.«100458_j64750926954712_2_alg».proof.Proof.ValueKI.Acc
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The output window's block index at a grid point: the point's expert, the half of the expert's tokens, and zero
    along the output columns (the block spans all 2048 of them). -/
theorem idx_facts4 : ∀ t : Fin cfg0.N, win0_4.index t (0 : Fin 3) = t.val / 16
    ∧ win0_4.index t (1 : Fin 3) = t.val / 8 % 2 ∧ win0_4.index t (2 : Fin 3) = 0 :=
  (by decide +kernel : ∀ t : Fin grid0.N, _)

/-- After the eighth step along the hidden axis (t ≡ 7 mod 8) the output block's entry (r, h) is the accumulator
    after eight blocks, which is the sum over all 4096 hidden columns: the specification's output entry. -/
theorem outs_last (t : Fin cfg0.N) (h7 : t.val % 8 = 7) (r : Fin 1024) (h : Fin 2048) :
    outsAt0 (F := Ideal) m c t.val t.isLt (ix3 (0 : Fin 1) r h)
      = Cert.Spec.out (xA m c) (wguA m c) (wdA m c) (eOf t) (tokOf t r) h := by
  refine (outsAt_eq m c t r h).trans ?_
  rw [acc_congr _ _ (le_refl 8) (show t.val % 8 + 1 = 8 by omega), Cert.Spec.acc_eq_sum]
  rfl

/-- The specification's output as contents of the result array [8, 2048, 2048]: entry (e, t, h) is the output of
    expert e's token t at column h. -/
def G6 : S8x2048x2048.Idx → EReal := fun i =>
  Cert.Spec.out (xA m c) (wguA m c) (wdA m c) ⟨(i 0).val, (i 0).isLt⟩ ⟨(i 1).val, (i 1).isLt⟩ ⟨(i 2).val, (i 2).isLt⟩

/-- What a point that writes the output block back writes is its block of G6: entry (0, r, h) of the block sits in
    the array at (expert, half * 1024 + r, h), and the block holds the full sum there. -/
theorem flushed_eq (t : Fin cfg0.N) (hf : (cfg0.win 4).flush t = true) :
    (dats (F := Ideal) m 0 c).flushed 4 t = ((cfg0.win 4).blk t).view.read (Elt Ideal) (G6 m c) := by
  have h7 : t.val % 8 = 7 := (flush0_4 t).mp hf
  show (cfg0.win 4).cut (grid0.coords t) ((dats (F := Ideal) m 0 c).after 4 t) = _
  rw [after0_4]
  funext y
  obtain ⟨e0, e1, e2⟩ := idx_facts4 t
  have hy0 : (y 0).val < 1 := (y 0).isLt
  have hy1 : (y 1).val < 1024 := (y 1).isLt
  have hy2 : (y 2).val < 2048 := (y 2).isLt
  have hN := lt128 t
  have ex : (cfg0.win 4).xinj (grid0.coords t) y = ix3 (0 : Fin 1) ⟨(y 1).val, hy1⟩ ⟨(y 2).val, hy2⟩ := by
    funext a; apply Fin.ext
    match a with
    | ⟨0, _⟩ => show (y 0).val = 0; omega
    | ⟨1, _⟩ => rfl
    | ⟨2, _⟩ => rfl
  have ee : ((cfg0.win 4).blk t).view.emb y = ix3 (eOf t) (tokOf t ⟨(y 1).val, hy1⟩) ⟨(y 2).val, hy2⟩ := by
    funext a; apply Fin.ext
    match a with
    | ⟨0, _⟩ => show win0_4.index t (0 : Fin 3) * 1 + 1 * (y 0).val = t.val / 16; omega
    | ⟨1, _⟩ => show win0_4.index t (1 : Fin 3) * 1024 + 1 * (y 1).val = (t.val / 8 % 2) * 1024 + (y 1).val; omega
    | ⟨2, _⟩ => show win0_4.index t (2 : Fin 3) * 2048 + 1 * (y 2).val = (y 2).val; omega
  show outsAt0 (F := Ideal) m c t.val t.isLt ((cfg0.win 4).xinj (grid0.coords t) y) = G6 m c (((cfg0.win 4).blk t).view.emb y)
  rw [ex, ee]
  exact outs_last m c t h7 _ _

/-- An index of the result array is in a point's block iff each coordinate is in the block's range on its axis. -/
theorem mem_blk4 (t : Fin cfg0.N) (i : S8x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v6).slice (win0_4.rect t)).set ↔ _
  rw [View.set_slice_whole, Rect.mem_set_unit]
  exact Iff.rfl

/-- Every entry (e, tk, h) of the result array is in the block written back at the point
    e * 16 + (tk / 1024) * 8 + 7: the last step along the hidden axis of expert e and of the half holding token tk. -/
theorem cover4 (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  have hlt : (i 0).val * 16 + (i 1).val / 1024 * 8 + 7 < cfg0.N := by
    rw [show cfg0.N = 128 from N_0]; omega
  refine ⟨⟨(i 0).val * 16 + (i 1).val / 1024 * 8 + 7, hlt⟩, (flush0_4 _).mpr (by dsimp only; omega), ?_⟩
  obtain ⟨e0, e1, e2⟩ := idx_facts4 ⟨(i 0).val * 16 + (i 1).val / 1024 * 8 + 7, hlt⟩
  dsimp only at e0 e1 e2
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 2048 ≤ (i 2).val ∧ (i 2).val < win0_4.index _ (2 : Fin 3) * 2048 + 2048; omega

/-- The blocks written back tile the result array and each is its block of G6, so the array after the region is G6. -/
theorem final6_arr : (dats (F := Ideal) m 0 c).arrAt 4 cfg0.N = G6 m c :=
  (dats (F := Ideal) m 0 c).arrAt_eq_of_cover 4 (G6 m c) (flushed_eq m c) cover4

/-- The result array after the region, entry by entry. -/
theorem final6 (e : Fin 8) (tk : Fin 2048) (h : Fin 2048) :
    (dats (F := Ideal) m 0 c).arrAt 4 cfg0.N (ix3 e tk h) = Cert.Spec.out (xA m c) (wguA m c) (wdA m c) e tk h := by
  rw [final6_arr]
  rfl

/-- Regrouped as the flat token array it is the specification's result: row e * 2048 + t of the flat array is
    entry (e, t) of the grouped one, the two having the same row-major position. -/
theorem v7_eq :
    (shapeCast S16384x2048 ((dats (F := Ideal) m 0 c).arrAt 4 cfg0.N : FVec Ideal S8x2048x2048 .f32) shapeCasts_S8x2048x2048_S16384x2048 : FVec Ideal S16384x2048 .f32)
      = Cert.Spec.G (xA m c) (wguA m c) (wdA m c) := by
  funext i
  have h0 : (i 0).val < 16384 := (i 0).isLt
  have h1 : (i 1).val < 2048 := (i 1).isLt
  refine (shapeCast_apply _ shapeCasts_S8x2048x2048_S16384x2048 i
    (ix3 (⟨(i 0).val / 2048, by omega⟩ : Fin 8) (⟨(i 0).val % 2048, by omega⟩ : Fin 2048) (⟨(i 1).val, h1⟩ : Fin 2048)) ?_).trans ?_
  · rewrite [Shape.rowMajor_val_three, Shape.rowMajor_val_two]
    show ((i 0).val / 2048 * 2048 + (i 0).val % 2048) * 2048 + (i 1).val = (i 0).val * 2048 + (i 1).val
    omega
  · exact final6 m c _ _ _

end Cert.KernelIdeal.Val

end
-- ==== Proof.RefValue.lean ====
import proofs.«100458_j64750926954712_2_alg».proof.Proof.Gen.ReferenceIdeal.Read
import proofs.«100458_j64750926954712_2_alg».proof.Proof.Spec

noncomputable section

namespace Cert.RefValue

open Cert.ReferenceIdeal Cert.ReferenceIdeal.Gen Cert.ReferenceIdeal.Read Cert.Spec Idealize.ShloMosaic Idealize.ShloMosaic.ValueIdx

/-- The word 0x3F800000 is the single-precision encoding of one. -/
theorem ofBits_one : Ideal.ofBits .f32 0x3F800000#32 = 1 := by
  simp [Ideal.ofBits, Ideal.ieee, -EReal.coe_mul]; norm_num

variable (x0 : (⟨S16384x2048, .f32⟩ : BufTy).Contents (Elt Ideal))
  (x1 : (⟨S8x8192x2048, .f32⟩ : BufTy).Contents (Elt Ideal))
  (x2 : (⟨S8x2048x4096, .f32⟩ : BufTy).Contents (Elt Ideal))

/-- The first contraction at expert e, token t and column c of the first weight matrix: the inner product of
    the token's row with that weight row. -/
theorem v1_at (e : Fin 8) (t : Fin 2048) (c : Fin 8192) :
    val_main_v1 (F := Ideal) x0 x1 (ix3 e t c) = ∑ j : Fin 2048, x0 (ix2 (row e t) j) * x1 (ix3 e c j) := by
  rw [val_main_v1_apply]
  refine Finset.sum_congr rfl fun k _ => ?_
  rw [val_main_v0_apply]
  have h0 : idx_main_v0 (lidx_main_v1 (ix3 e t c) k) = ix2 (row e t) k := funext fun a => Fin.ext (by
    match a with
    | ⟨0, _⟩ => show ((e.val * 2048 + t.val) * 2048 + k.val) / 2048 = e.val * 2048 + t.val; omega
    | ⟨1, _⟩ => show ((e.val * 2048 + t.val) * 2048 + k.val) % 2048 = k.val; omega)
  have h1 : ridx_main_v1 (ix3 e t c) k = ix3 e c k := funext fun a => Fin.ext (by
    match a with
    | ⟨0, _⟩ => rfl
    | ⟨1, _⟩ => rfl
    | ⟨2, _⟩ => rfl)
  rw [h0, h1]

/-- The first half of the columns is the gate projection. -/
theorem v2_at (e : Fin 8) (t : Fin 2048) (f : Fin 4096) :
    val_main_v2 (F := Ideal) x0 x1 (ix3 e t f) = gate x0 x1 e t f := by
  rw [val_main_v2_apply]
  have h : idx_main_v2 (ix3 e t f) = ix3 e t (gcol f) := funext fun a => Fin.ext (by
    match a with
    | ⟨0, _⟩ => rfl
    | ⟨1, _⟩ => rfl
    | ⟨2, _⟩ => rfl)
  rw [h, v1_at]; rfl

/-- The second half of the columns is the up projection. -/
theorem v3_at (e : Fin 8) (t : Fin 2048) (f : Fin 4096) :
    val_main_v3 (F := Ideal) x0 x1 (ix3 e t f) = up x0 x1 e t f := by
  rw [val_main_v3_apply]
  have h : idx_main_v3 (ix3 e t f) = ix3 e t (ucol f) := funext fun a => Fin.ext (by
    match a with
    | ⟨0, _⟩ => rfl
    | ⟨1, _⟩ => rfl
    | ⟨2, _⟩ => rfl)
  rw [h, v1_at]; rfl

/-- The activation: the gate times one over one plus the exponential of minus the gate, times the up projection. -/
theorem v5_at (e : Fin 8) (t : Fin 2048) (f : Fin 4096) :
    val_main_v5 (F := Ideal) x0 x1 (ix3 e t f) = hid x0 x1 e t f := by
  rw [val_main_v5_apply, val_main_v4_apply, val_main_call0_v5_apply, val_main_call0_v4_apply,
    val_main_call0_cst_0_apply, val_main_call0_v3_apply, val_main_call0_v2_apply, val_main_call0_cst_apply,
    val_main_call0_v1_apply, val_main_call0_v0_apply, v2_at, v3_at]
  show gate x0 x1 e t f * Ideal.div (Ideal.ofBits .f32 0x3F800000#32)
      (Ideal.ofBits .f32 0x3F800000#32 + Ideal.exp (-gate x0 x1 e t f)) * up x0 x1 e t f = _
  rw [ofBits_one]; rfl

/-- The reference result, entry by entry, is the specification's array. -/
theorem ref_eq : val_main_v7 (F := Ideal) x0 x1 x2 = G x0 x1 x2 := by
  funext i
  obtain ⟨r, h, rfl⟩ : ∃ (r : Fin 16384) (h : Fin 2048), i = ix2 r h := ⟨i 0, i 1, eq_ix2 i⟩
  have hr := r.isLt
  have hh := h.isLt
  rw [val_main_v7_apply, val_main_v6_apply]
  show _ = ∑ f : Fin 4096, term x0 x1 x2 ⟨r.val / 2048, by omega⟩ ⟨r.val % 2048, by omega⟩ ⟨h.val, hh⟩ f
  refine Finset.sum_congr rfl fun k _ => ?_
  have hl : lidx_main_v6 (idx_main_v7 (ix2 r h)) k
      = ix3 (⟨r.val / 2048, by omega⟩ : Fin 8) (⟨r.val % 2048, by omega⟩ : Fin 2048) k := funext fun a => Fin.ext (by
    match a with
    | ⟨0, _⟩ => show (r.val * 2048 + h.val) / 4194304 = r.val / 2048; omega
    | ⟨1, _⟩ => show (r.val * 2048 + h.val) / 2048 % 2048 = r.val % 2048; omega
    | ⟨2, _⟩ => rfl)
  have hrr : ridx_main_v6 (idx_main_v7 (ix2 r h)) k
      = ix3 (⟨r.val / 2048, by omega⟩ : Fin 8) (⟨h.val, hh⟩ : Fin 2048) k := funext fun a => Fin.ext (by
    match a with
    | ⟨0, _⟩ => show (r.val * 2048 + h.val) / 4194304 = r.val / 2048; omega
    | ⟨1, _⟩ => show (r.val * 2048 + h.val) % 2048 = h.val; omega
    | ⟨2, _⟩ => rfl)
  rw [hl, hrr, v5_at]; rfl

end Cert.RefValue

end
-- ==== Proof.lean ====
/-
  The certificate of a grouped feed-forward layer (eight experts, tokens grouped by expert): for each expert's block of
  tokens the kernel computes `silu(x · Wgᵀ) * (x · Wuᵀ)` and multiplies by `Wdᵀ`, one block of 512 hidden columns per
  grid step, adding the eight partial products into the output block, which it zeroes at the first step. The reference
  computes the same with two whole contractions per expert.

  At the ideal instance both results are, entry by entry, the sum over all 4096 hidden columns of
  `gate * logistic gate * up` times the down weight (`Cert.Spec.G`): the kernel's eight partial sums added to zero are
  that sum because addition of extended reals is commutative and associative (`Cert.Spec.acc_eq_sum`), the changes of
  float format are the identity, the kernel's logistic and the reference's `1 / (1 + exp (-z))` are one function, and
  the host operations around the kernel only regroup and transpose. No finiteness of the inputs is needed.

  The three frames: each program runs to its end, faults nowhere and leaves its argument arrays unchanged — the kernel
  programs by the pipeline's launch from the body's symbolic runs (the same text at both instances), the reference by
  its operations' run. The idealization rewrote nothing, so `preserves` is trivial.
-/
import proofs.«100458_j64750926954712_2_alg».proof.Defs
import proofs.«100458_j64750926954712_2_alg».proof.Proof.Gen.Kernel
import proofs.«100458_j64750926954712_2_alg».proof.Proof.Gen.KernelIdeal
import proofs.«100458_j64750926954712_2_alg».proof.Proof.Gen.ReferenceIdeal
import proofs.«100458_j64750926954712_2_alg».proof.Proof.Gen.Pre_finite_inputs
import proofs.«100458_j64750926954712_2_alg».proof.Proof.FrameK.Launch
import proofs.«100458_j64750926954712_2_alg».proof.Proof.FrameKI.Launch
import proofs.«100458_j64750926954712_2_alg».proof.Proof.ValueKI.Final
import proofs.«100458_j64750926954712_2_alg».proof.Proof.RefValue

noncomputable section

namespace Cert.Proof

open Idealize.ShloMosaic Idealize.ShloMosaic.TcCoe Idealize.SL.Sem

/-- The word-level kernel program runs and leaves its arguments unchanged. -/
theorem frame_k : Cert.frame_Kernel (hKernel := Cert.Kernel.Gen.facts) (hPre_finite_inputs := Cert.Pre_finite_inputs.Gen.facts) := fun m ρ _ =>
  (θ_run Cert.Kernel.defs _ _).mono (fun _ h c =>
      ⟨(h c).2.1.trans (Cert.Kernel.Hand.V_main_arg0 m c), (h c).2.2.1.trans (Cert.Kernel.Hand.V_main_arg1 m c),
        (h c).2.2.2.1.trans (Cert.Kernel.Hand.V_main_arg2 m c), (h c).2.2.2.2.trans (Cert.Kernel.Hand.V_main_arg3 m c)⟩)
    (Cert.Kernel.Hand.run_main (F := Bits) m ρ)

/-- The idealized kernel program runs and leaves its arguments unchanged. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c =>
      ⟨(h c).2.1.trans (Cert.KernelIdeal.Hand.V_main_arg0 m c), (h c).2.2.1.trans (Cert.KernelIdeal.Hand.V_main_arg1 m c),
        (h c).2.2.2.1.trans (Cert.KernelIdeal.Hand.V_main_arg2 m c), (h c).2.2.2.2.trans (Cert.KernelIdeal.Hand.V_main_arg3 m c)⟩)
    (Cert.KernelIdeal.Hand.run_main (F := Ideal) m ρ)

/-- The idealized reference runs and leaves its arguments unchanged: its operations' run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories that agree on the arguments both idealized programs end with the specification's result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (Cert.KernelIdeal.Val.xA m c) (Cert.KernelIdeal.Val.wguA m c) (Cert.KernelIdeal.Val.wdA m c), ?_, ?_⟩
  · refine (θ_run Cert.KernelIdeal.defs _ _).mono (fun _ h c => ?_) (Cert.KernelIdeal.Hand.run_main (F := Ideal) m ρ)
    obtain ⟨h7, h0, h1, h2, h3⟩ := h c
    exact ⟨h7.trans ((Cert.KernelIdeal.Hand.Wy_v7 m c).trans (Cert.KernelIdeal.Val.v7_eq m c)),
      h0.trans (Cert.KernelIdeal.Hand.V_main_arg0 m c), h1.trans (Cert.KernelIdeal.Hand.V_main_arg1 m c),
      h2.trans (Cert.KernelIdeal.Hand.V_main_arg2 m c), h3.trans (Cert.KernelIdeal.Hand.V_main_arg3 m c)⟩
  · refine (θ_run Cert.ReferenceIdeal.defs _ _).mono (fun _ h c => ?_) (Cert.ReferenceIdeal.Value.run (F := Ideal) m' ρ')
    obtain ⟨h7, h0, h1, h2, h3⟩ := h c
    refine ⟨h7.trans ?_, h0, h1, h2, h3⟩
    rw [Cert.ReferenceIdeal.Read.val_main_v7_eq, Cert.RefValue.ref_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
